-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x8 : Shape := ⟨2, ![262144, 8]⟩
abbrev S16x128 : Shape := ⟨2, ![16, 128]⟩
abbrev S128x96 : Shape := ⟨2, ![128, 96]⟩
abbrev S96x128 : Shape := ⟨2, ![96, 128]⟩
abbrev S1x384 : Shape := ⟨2, ![1, 384]⟩
abbrev S_ : Shape := ⟨0, ![]⟩

class Facts : Prop where
  bcast_S_S262144x8 : S_.BroadcastsInDim S262144x8 (![] : Fin 0 → Fin S262144x8.rank)
  reducesTo_S262144x8_S_d0_1 : S262144x8.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128x96 : S_.BroadcastsInDim S128x96 (![] : Fin 0 → Fin S128x96.rank)
  reducesTo_S128x96_S_d0_1 : S128x96.ReducesTo [0, 1] S_
  bcast_S_S96x128 : S_.BroadcastsInDim S96x128 (![] : Fin 0 → Fin S96x128.rank)
  reducesTo_S96x128_S_d0_1 : S96x128.ReducesTo [0, 1] S_
  bcast_S_S1x384 : S_.BroadcastsInDim S1x384 (![] : Fin 0 → Fin S1x384.rank)
  reducesTo_S1x384_S_d0_1 : S1x384.ReducesTo [0, 1] S_

variable [Facts]

def fn_part1 {F : FTy → Type} [FloatOps F] (main_arg4 : FVec F S96x128 .f32) (main_arg5 : FVec F S1x384 .f32) (main_v13 : IVec S_ 1) (main_v16 : IVec S128x96 1) : IVec S_ 1 :=
  let main_c_5 : IVec S_ 1 := constantI S_ 1 1#1
  let main_v17 : IVec S_ 1 := (fun x v => Host.reduce IntOp.andi x v reducesTo_S128x96_S_d0_1 h_S_) main_v16 main_c_5
  let main_v18 : IVec S_ 1 := andi main_v13 main_v17
  let main_v19 : FVec F S96x128 .f32 := Host.absf main_arg4
  let main_cst_6 : FVec F S_ .f32 := constant S_ .f32 0x7F800000#32
  let main_v20 : FVec F S96x128 .f32 := broadcastInDim S96x128 ![] bcast_S_S96x128 main_cst_6
  let main_v21 : IVec S96x128 1 := cmpf .olt main_v19 main_v20
  let main_c_7 : IVec S_ 1 := constantI S_ 1 1#1
  let main_v22 : IVec S_ 1 := (fun x v => Host.reduce IntOp.andi x v reducesTo_S96x128_S_d0_1 h_S_) main_v21 main_c_7
  let main_v23 : IVec S_ 1 := andi main_v18 main_v22
  let main_v24 : FVec F S1x384 .f32 := Host.absf main_arg5
  let main_cst_8 : FVec F S_ .f32 := constant S_ .f32 0x7F800000#32
  let main_v25 : FVec F S1x384 .f32 := broadcastInDim S1x384 ![] bcast_S_S1x384 main_cst_8
  let main_v26 : IVec S1x384 1 := cmpf .olt main_v24 main_v25
  let main_c_9 : IVec S_ 1 := constantI S_ 1 1#1
  let main_v27 : IVec S_ 1 := (fun x v => Host.reduce IntOp.andi x v reducesTo_S1x384_S_d0_1 h_S_) main_v26 main_c_9
  let main_v28 : IVec S_ 1 := andi main_v23 main_v27
  main_v28

def fn {F : FTy → Type} [FloatOps F] (main_arg0 : FVec F S262144x8 .f32) (main_arg1 : FVec F S262144x8 .f32) (main_arg2 : FVec F S16x128 .f32) (main_arg3 : FVec F S128x96 .f32) (main_arg4 : FVec F S96x128 .f32) (main_arg5 : FVec F S1x384 .f32) : IVec S_ 1 :=
  let main_v0 : FVec F S262144x8 .f32 := Host.absf main_arg0
  let main_cst : FVec F S_ .f32 := constant S_ .f32 0x7F800000#32
  let main_v1 : FVec F S262144x8 .f32 := broadcastInDim S262144x8 ![] bcast_S_S262144x8 main_cst
  let main_v2 : IVec S262144x8 1 := cmpf .olt main_v0 main_v1
  let main_c : IVec S_ 1 := constantI S_ 1 1#1
  let main_v3 : IVec S_ 1 := (fun x v => Host.reduce IntOp.andi x v reducesTo_S262144x8_S_d0_1 h_S_) main_v2 main_c
  let main_v4 : FVec F S262144x8 .f32 := Host.absf main_arg1
  let main_cst_0 : FVec F S_ .f32 := constant S_ .f32 0x7F800000#32
  let main_v5 : FVec F S262144x8 .f32 := broadcastInDim S262144x8 ![] bcast_S_S262144x8 main_cst_0
  let main_v6 : IVec S262144x8 1 := cmpf .olt main_v4 main_v5
  let main_c_1 : IVec S_ 1 := constantI S_ 1 1#1
  let main_v7 : IVec S_ 1 := (fun x v => Host.reduce IntOp.andi x v reducesTo_S262144x8_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128x96 .f32 := Host.absf main_arg3
  let main_cst_4 : FVec F S_ .f32 := constant S_ .f32 0x7F800000#32
  let main_v15 : FVec F S128x96 .f32 := broadcastInDim S128x96 ![] bcast_S_S128x96 main_cst_4
  let main_v16 : IVec S128x96 1 := cmpf .olt main_v14 main_v15
  fn_part1 (F := F) main_arg4 main_arg5 main_v13 main_v16
-- ==== Kernel.lean ====
abbrev S262144x8 : Shape := ⟨2, ![262144, 8]⟩
abbrev S16x128 : Shape := ⟨2, ![16, 128]⟩
abbrev S128x96 : Shape := ⟨2, ![128, 96]⟩
abbrev S96x128 : Shape := ⟨2, ![96, 128]⟩
abbrev S1x384 : Shape := ⟨2, ![1, 384]⟩
abbrev S8x262144 : Shape := ⟨2, ![8, 262144]⟩
abbrev S4x262144 : Shape := ⟨2, ![4, 262144]⟩
abbrev S1x262144 : Shape := ⟨2, ![1, 262144]⟩
abbrev S8x32768 : Shape := ⟨2, ![8, 32768]⟩
abbrev S4x32768 : Shape := ⟨2, ![4, 32768]⟩
abbrev S1x32768 : Shape := ⟨2, ![1, 32768]⟩
abbrev S17x32768 : Shape := ⟨2, ![17, 32768]⟩
abbrev S8x128 : Shape := ⟨2, ![8, 128]⟩
abbrev S1x128 : Shape := ⟨2, ![1, 128]⟩
abbrev S17x128 : Shape := ⟨2, ![17, 128]⟩
abbrev S128x32768 : Shape := ⟨2, ![128, 32768]⟩
abbrev S96x32768 : Shape := ⟨2, ![96, 32768]⟩
abbrev S1x96 : Shape := ⟨2, ![1, 96]⟩
abbrev S96x9 : Shape := ⟨2, ![96, 9]⟩
abbrev S9x32768 : Shape := ⟨2, ![9, 32768]⟩
abbrev S1x9 : Shape := ⟨2, ![1, 9]⟩
abbrev S262144x4 : Shape := ⟨2, ![262144, 4]⟩
abbrev S262144x1 : Shape := ⟨2, ![262144, 1]⟩

abbrev nBuf : Space → Nat
  | .hbm => 14
  | .vmem => 14
  | .smem => 0
  | _ => 0

abbrev bufTy : (tb : Table) → Fin (tcTables nBuf tb) → BufTy
  | .hbm, ⟨0, _⟩ => ⟨S262144x8, .f32⟩
  | .hbm, ⟨1, _⟩ => ⟨S262144x8, .f32⟩
  | .hbm, ⟨2, _⟩ => ⟨S16x128, .f32⟩
  | .hbm, ⟨3, _⟩ => ⟨S128x96, .f32⟩
  | .hbm, ⟨4, _⟩ => ⟨S96x128, .f32⟩
  | .hbm, ⟨5, _⟩ => ⟨S1x384, .f32⟩
  | .hbm, ⟨6, _⟩ => ⟨S8x262144, .f32⟩
  | .hbm, ⟨7, _⟩ => ⟨S8x262144, .f32⟩
  | .hbm, ⟨8, _⟩ => ⟨S4x262144, .f32⟩
  | .hbm, ⟨9, _⟩ => ⟨S1x262144, .f32⟩
  | .hbm, ⟨10, _⟩ => ⟨S4x262144, .f32⟩
  | .hbm, ⟨11, _⟩ => ⟨S262144x4, .f32⟩
  | .hbm, ⟨12, _⟩ => ⟨S262144x1, .f32⟩
  | .hbm, ⟨13, _⟩ => ⟨S262144x4, .f32⟩
  | .local _ .vmem, ⟨0, _⟩ => ⟨S8x32768, .f32⟩
  | .local _ .vmem, ⟨1, _⟩ => ⟨S8x32768, .f32⟩
  | .local _ .vmem, ⟨2, _⟩ => ⟨S8x32768, .f32⟩
  | .local _ .vmem, ⟨3, _⟩ => ⟨S8x32768, .f32⟩
  | .local _ .vmem, ⟨4, _⟩ => ⟨S16x128, .f32⟩
  | .local _ .vmem, ⟨5, _⟩ => ⟨S128x96, .f32⟩
  | .local _ .vmem, ⟨6, _⟩ => ⟨S96x128, .f32⟩
  | .local _ .vmem, ⟨7, _⟩ => ⟨S1x384, .f32⟩
  | .local _ .vmem, ⟨8, _⟩ => ⟨S4x32768, .f32⟩
  | .local _ .vmem, ⟨9, _⟩ => ⟨S4x32768, .f32⟩
  | .local _ .vmem, ⟨10, _⟩ => ⟨S1x32768, .f32⟩
  | .local _ .vmem, ⟨11, _⟩ => ⟨S1x32768, .f32⟩
  | .local _ .vmem, ⟨12, _⟩ => ⟨S4x32768, .f32⟩
  | .local _ .vmem, ⟨13, _⟩ => ⟨S4x32768, .f32⟩
  | _, _ => ⟨S262144x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x32768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S262144x8_S8x262144_1_0 : S262144x8.Transposes [1, 0] S8x262144
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  concatenates_S8x32768_S1x32768_S8x32768_S17x32768_d0 : Shape.Concatenates [S8x32768, S1x32768, S8x32768] S17x32768 0
  inb_S16x128_S8x128_0_0 : ∀ a, (![0, 0] : Fin 2 → Nat) a + S8x128.size a ≤ S16x128.size a
  h_S8x128 : 0 < S8x128.numel
  inb_S1x384_S1x128_0_0 : ∀ a, (![0, 0] : Fin 2 → Nat) a + S1x128.size a ≤ S1x384.size a
  h_S1x128 : 0 < S1x128.numel
  inb_S16x128_S8x128_8_0 : ∀ a, (![8, 0] : Fin 2 → Nat) a + S8x128.size a ≤ S16x128.size a
  concatenates_S8x128_S1x128_S8x128_S17x128_d0 : Shape.Concatenates [S8x128, S1x128, S8x128] S17x128 0
  inb_S128x96_S128x96_0_0 : ∀ a, (![0, 0] : Fin 2 → Nat) a + S128x96.size a ≤ S128x96.size a
  h_S128x96 : 0 < S128x96.numel
  inb_S1x384_S1x96_0_128 : ∀ a, (![0, 128] : Fin 2 → Nat) a + S1x96.size a ≤ S1x384.size a
  h_S1x96 : 0 < S1x96.numel
  inb_S96x128_S96x9_0_0 : ∀ a, (![0, 0] : Fin 2 → Nat) a + S96x9.size a ≤ S96x128.size a
  h_S96x9 : 0 < S96x9.numel
  inb_S1x384_S1x9_0_256 : ∀ a, (![0, 256] : Fin 2 → Nat) a + S1x9.size a ≤ S1x384.size a
  h_S1x9 : 0 < S1x9.numel
  slices_S9x32768_o0_0_S4x32768 : S9x32768.Slices ![0, 0] S4x32768
  inb_S4x32768_S4x32768_0_0 : ∀ a, (![0, 0] : Fin 2 → Nat) a + S4x32768.size a ≤ S4x32768.size a
  h_S4x32768 : 0 < S4x32768.numel
  slices_S9x32768_o4_0_S1x32768 : S9x32768.Slices ![4, 0] S1x32768
  inb_S1x32768_S1x32768_0_0 : ∀ a, (![0, 0] : Fin 2 → Nat) a + S1x32768.size a ≤ S1x32768.size a
  h_S1x32768 : 0 < S1x32768.numel
  slices_S9x32768_o5_0_S4x32768 : S9x32768.Slices ![5, 0] S4x32768
  transposes_S4x262144_S262144x4_1_0 : S4x262144.Transposes [1, 0] S262144x4
  transposes_S1x262144_S262144x1_1_0 : S1x262144.Transposes [1, 0] S262144x1
  dot_S17x128_S17x32768_S128x32768_0_0_1_1_n_n_wf : DotDims.WF S17x128 S17x32768 S128x32768 [0] [0] [1] [1] [] []
  dot_S128x96_S128x32768_S96x32768_0_0_1_1_n_n_wf : DotDims.WF S128x96 S128x32768 S96x32768 [0] [0] [1] [1] [] []
  dot_S1x96_S1x32768_S96x32768_0_0_1_1_n_n_wf : DotDims.WF S1x96 S1x32768 S96x32768 [0] [0] [1] [1] [] []
  dot_S96x9_S96x32768_S9x32768_0_0_1_1_n_n_wf : DotDims.WF S96x9 S96x32768 S9x32768 [0] [0] [1] [1] [] []
  dot_S1x9_S1x32768_S9x32768_0_0_1_1_n_n_wf : DotDims.WF S1x9 S1x32768 S9x32768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32768.size a ≤ S8x262144.size a
  hwx0_0 : ∀ i : grid0.Coords, EltTy.bits .f32 = 32 ∨ (Rect.block (s := S8x262144) S8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S8x262144.size a
  hwx0_1 : ∀ i : grid0.Coords, EltTy.bits .f32 = 32 ∨ (Rect.block (s := S8x262144) S8x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x96.size a ≤ S128x96.size a
  hwx0_3 : ∀ i : grid0.Coords, EltTy.bits .f32 = 32 ∨ (Rect.block (s := S128x96) S128x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x128.size a ≤ S96x128.size a
  hwx0_4 : ∀ i : grid0.Coords, EltTy.bits .f32 = 32 ∨ (Rect.block (s := S96x128) S96x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x32768.size a ≤ S4x262144.size a
  hwx0_6 : ∀ i : grid0.Coords, EltTy.bits .f32 = 32 ∨ (Rect.block (s := S4x262144) S4x32768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32768.size a ≤ S1x262144.size a
  hwx0_7 : ∀ i : grid0.Coords, EltTy.bits .f32 = 32 ∨ (Rect.block (s := S1x262144) S1x32768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x32768.size a ≤ S4x262144.size a
  hwx0_8 : ∀ i : grid0.Coords, EltTy.bits .f32 = 32 ∨ (Rect.block (s := S4x262144) S4x32768.size (cc0_transform_8 i) (hinb0_8 i)).WholeWords (EltTy.packing .f32)

variable [Facts₀]

def dot_S17x128_S17x32768_S128x32768_0_0_1_1_n_n : DotDims S17x128 S17x32768 S128x32768 where
  lhsContracting := [0]
  rhsContracting := [0]
  lhsNonContracting := [1]
  rhsNonContracting := [1]
  lhsBatch := []
  rhsBatch := []
  wf := dot_S17x128_S17x32768_S128x32768_0_0_1_1_n_n_wf
def dot_S128x96_S128x32768_S96x32768_0_0_1_1_n_n : DotDims S128x96 S128x32768 S96x32768 where
  lhsContracting := [0]
  rhsContracting := [0]
  lhsNonContracting := [1]
  rhsNonContracting := [1]
  lhsBatch := []
  rhsBatch := []
  wf := dot_S128x96_S128x32768_S96x32768_0_0_1_1_n_n_wf
def dot_S1x96_S1x32768_S96x32768_0_0_1_1_n_n : DotDims S1x96 S1x32768 S96x32768 where
  lhsContracting := [0]
  rhsContracting := [0]
  lhsNonContracting := [1]
  rhsNonContracting := [1]
  lhsBatch := []
  rhsBatch := []
  wf := dot_S1x96_S1x32768_S96x32768_0_0_1_1_n_n_wf
def dot_S96x9_S96x32768_S9x32768_0_0_1_1_n_n : DotDims S96x9 S96x32768 S9x32768 where
  lhsContracting := [0]
  rhsContracting := [0]
  lhsNonContracting := [1]
  rhsNonContracting := [1]
  lhsBatch := []
  rhsBatch := []
  wf := dot_S96x9_S96x32768_S9x32768_0_0_1_1_n_n_wf
def dot_S1x9_S1x32768_S9x32768_0_0_1_1_n_n : DotDims S1x9 S1x32768 S9x32768 where
  lhsContracting := [0]
  rhsContracting := [0]
  lhsNonContracting := [1]
  rhsNonContracting := [1]
  lhsBatch := []
  rhsBatch := []
  wf := dot_S1x9_S1x32768_S9x32768_0_0_1_1_n_n_wf

abbrev win0_0 : Pipeline.Window sig grid0 :=
  Pipeline.Window.ofSpec (Memref.whole main_v0) S8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S4x32768.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1x32768.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_2) S4x32768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x8 : Shape := ⟨2, ![262144, 8]⟩
abbrev S16x128 : Shape := ⟨2, ![16, 128]⟩
abbrev S128x96 : Shape := ⟨2, ![128, 96]⟩
abbrev S96x128 : Shape := ⟨2, ![96, 128]⟩
abbrev S1x384 : Shape := ⟨2, ![1, 384]⟩
abbrev S262144x16 : Shape := ⟨2, ![262144, 16]⟩
abbrev S512x384 : Shape := ⟨2, ![512, 384]⟩
abbrev S262144x128 : Shape := ⟨2, ![262144, 128]⟩
abbrev S512x16 : Shape := ⟨2, ![512, 16]⟩
abbrev S512x128 : Shape := ⟨2, ![512, 128]⟩
abbrev S512x96 : Shape := ⟨2, ![512, 96]⟩
abbrev S262144x4 : Shape := ⟨2, ![262144, 4]⟩
abbrev S262144x1 : Shape := ⟨2, ![262144, 1]⟩

abbrev nBuf : Space → Nat
  | .hbm => 12
  | .vmem => 8
  | .smem => 0
  | _ => 0

abbrev bufTy : (tb : Table) → Fin (tcTables nBuf tb) → BufTy
  | .hbm, ⟨0, _⟩ => ⟨S262144x8, .f32⟩
  | .hbm, ⟨1, _⟩ => ⟨S262144x8, .f32⟩
  | .hbm, ⟨2, _⟩ => ⟨S16x128, .f32⟩
  | .hbm, ⟨3, _⟩ => ⟨S128x96, .f32⟩
  | .hbm, ⟨4, _⟩ => ⟨S96x128, .f32⟩
  | .hbm, ⟨5, _⟩ => ⟨S1x384, .f32⟩
  | .hbm, ⟨6, _⟩ => ⟨S262144x16, .f32⟩
  | .hbm, ⟨7, _⟩ => ⟨S512x384, .f32⟩
  | .hbm, ⟨8, _⟩ => ⟨S262144x128, .f32⟩
  | .hbm, ⟨9, _⟩ => ⟨S262144x4, .f32⟩
  | .hbm, ⟨10, _⟩ => ⟨S262144x1, .f32⟩
  | .hbm, ⟨11, _⟩ => ⟨S262144x4, .f32⟩
  | .local _ .vmem, ⟨0, _⟩ => ⟨S512x16, .f32⟩
  | .local _ .vmem, ⟨1, _⟩ => ⟨S512x16, .f32⟩
  | .local _ .vmem, ⟨2, _⟩ => ⟨S16x128, .f32⟩
  | .local _ .vmem, ⟨3, _⟩ => ⟨S128x96, .f32⟩
  | .local _ .vmem, ⟨4, _⟩ => ⟨S96x128, .f32⟩
  | .local _ .vmem, ⟨5, _⟩ => ⟨S512x384, .f32⟩
  | .local _ .vmem, ⟨6, _⟩ => ⟨S512x128, .f32⟩
  | .local _ .vmem, ⟨7, _⟩ => ⟨S512x128, .f32⟩
  | _, _ => ⟨S262144x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S262144x8_S262144x8_S262144x16_d1 : Shape.Concatenates [S262144x8, S262144x8] S262144x16 1
  bcast_S1x384_S512x384_0_1 : S1x384.BroadcastsInDim S512x384 (![0, 1] : Fin 2 → Fin S512x384.rank)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S16x128_S16x128_0_0 : ∀ a, (![0, 0] : Fin 2 → Nat) a + S16x128.size a ≤ S16x128.size a
  h_S16x128 : 0 < S16x128.numel
  inb_S512x384_S512x128_0_0 : ∀ a, (![0, 0] : Fin 2 → Nat) a + S512x128.size a ≤ S512x384.size a
  h_S512x128 : 0 < S512x128.numel
  shapeCasts_S512x128_S512x128 : S512x128.ShapeCasts S512x128
  inb_S128x96_S128x96_0_0 : ∀ a, (![0, 0] : Fin 2 → Nat) a + S128x96.size a ≤ S128x96.size a
  h_S128x96 : 0 < S128x96.numel
  inb_S512x384_S512x96_0_128 : ∀ a, (![0, 128] : Fin 2 → Nat) a + S512x96.size a ≤ S512x384.size a
  h_S512x96 : 0 < S512x96.numel
  shapeCasts_S512x96_S512x96 : S512x96.ShapeCasts S512x96
  inb_S96x128_S96x128_0_0 : ∀ a, (![0, 0] : Fin 2 → Nat) a + S96x128.size a ≤ S96x128.size a
  h_S96x128 : 0 < S96x128.numel
  inb_S512x384_S512x128_0_256 : ∀ a, (![0, 256] : Fin 2 → Nat) a + S512x128.size a ≤ S512x384.size a
  inb_S512x128_S512x128_0_0 : ∀ a, (![0, 0] : Fin 2 → Nat) a + S512x128.size a ≤ S512x128.size a
  slices_S262144x128_S262144x4_0_0 : S262144x128.Slices ![0, 0] S262144x4
  slices_S262144x128_S262144x1_0_4 : S262144x128.Slices ![0, 4] S262144x1
  slices_S262144x128_S262144x4_0_5 : S262144x128.Slices ![0, 5] S262144x4
  dot_S512x16_S16x128_S512x128_1_0_0_1_n_n_wf : DotDims.WF S512x16 S16x128 S512x128 [1] [0] [0] [1] [] []
  dot_S512x128_S128x96_S512x96_1_0_0_1_n_n_wf : DotDims.WF S512x128 S128x96 S512x96 [1] [0] [0] [1] [] []
  dot_S512x96_S96x128_S512x128_1_0_0_1_n_n_wf : DotDims.WF S512x96 S96x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S262144x16.size a
  hwx0_0 : ∀ i : grid0.Coords, EltTy.bits .f32 = 32 ∨ (Rect.block (s := S262144x16) S512x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x96.size a ≤ S128x96.size a
  hwx0_2 : ∀ i : grid0.Coords, EltTy.bits .f32 = 32 ∨ (Rect.block (s := S128x96) S128x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x384.size a ≤ S512x384.size a
  hwx0_4 : ∀ i : grid0.Coords, EltTy.bits .f32 = 32 ∨ (Rect.block (s := S512x384) S512x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S262144x128.size a
  hwx0_5 : ∀ i : grid0.Coords, EltTy.bits .f32 = 32 ∨ (Rect.block (s := S262144x128) S512x128.size (cc0_transform_5 i) (hinb0_5 i)).WholeWords (EltTy.packing .f32)

variable [Facts₀]

def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def dot_S512x128_S128x96_S512x96_1_0_0_1_n_n : DotDims S512x128 S128x96 S512x96 where
  lhsContracting := [1]
  rhsContracting := [0]
  lhsNonContracting := [0]
  rhsNonContracting := [1]
  lhsBatch := []
  rhsBatch := []
  wf := dot_S512x128_S128x96_S512x96_1_0_0_1_n_n_wf
def dot_S512x96_S96x128_S512x128_1_0_0_1_n_n : DotDims S512x96 S96x128 S512x128 where
  lhsContracting := [1]
  rhsContracting := [0]
  lhsNonContracting := [0]
  rhsNonContracting := [1]
  lhsBatch := []
  rhsBatch := []
  wf := dot_S512x96_S96x128_S512x128_1_0_0_1_n_n_wf

abbrev win0_0 : Pipeline.Window sig grid0 :=
  Pipeline.Window.ofSpec (Memref.whole main_v0) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KernelMatmul.lean ====
/-
  The kernel's five matrix products read at an entry. Every one contracts the LEADING axis of both operands
  (the weights are used transposed): entry `(j, q)` of the product is the sum over `k` of `L (k, j) · R (k, q)`.
  At the extended reals a product into a zero accumulator is exactly that finite sum.
-/
import proofs.«142301_g2000202583906136_pallasbulk_95_21_alg».proof.Proof.Gen.KernelIdeal
import Idealize.ShloMosaic.Lib.ValueIdx
import Idealize.ShloMosaic.PureOps.Ideal.Laws

noncomputable section

namespace Cert.KernelIdeal.Hand

open Idealize.ShloMosaic Idealize.ShloMosaic.ValueIdx Cert.KernelIdeal Cert.KernelIdeal.Gen

namespace Trunk

theorem lhs_0 (i : S128x32768.Idx) (q : dot_S17x128_S17x32768_S128x32768_0_0_1_1_n_n.contr.Idx) :
    (dot_S17x128_S17x32768_S128x32768_0_0_1_1_n_n.lhsIdx i q 0).val = (q ⟨0, by decide⟩).val := dot_S17x128_S17x32768_S128x32768_0_0_1_1_n_n.lhsIdx_val_of_single rfl i q
theorem lhs_1 (i : S128x32768.Idx) (q : dot_S17x128_S17x32768_S128x32768_0_0_1_1_n_n.contr.Idx) :
    (dot_S17x128_S17x32768_S128x32768_0_0_1_1_n_n.lhsIdx i q 1).val = (i 0).val := by
  unfold DotDims.lhsIdx
  rw [dif_neg (show ¬(1 : Fin S17x128.rank) ∈ dot_S17x128_S17x32768_S128x32768_0_0_1_1_n_n.lhsBatch by decide), dif_pos (show (1 : Fin S17x128.rank) ∈ dot_S17x128_S17x32768_S128x32768_0_0_1_1_n_n.lhsNonContracting by decide)]
  rfl
theorem rhs_0 (i : S128x32768.Idx) (q : dot_S17x128_S17x32768_S128x32768_0_0_1_1_n_n.contr.Idx) :
    (dot_S17x128_S17x32768_S128x32768_0_0_1_1_n_n.rhsIdx i q 0).val = (q ⟨0, by decide⟩).val := dot_S17x128_S17x32768_S128x32768_0_0_1_1_n_n.rhsIdx_val_of_single rfl i q
theorem rhs_1 (i : S128x32768.Idx) (q : dot_S17x128_S17x32768_S128x32768_0_0_1_1_n_n.contr.Idx) :
    (dot_S17x128_S17x32768_S128x32768_0_0_1_1_n_n.rhsIdx i q 1).val = (i 1).val := by
  unfold DotDims.rhsIdx
  rw [dif_neg (show ¬(1 : Fin S17x32768.rank) ∈ dot_S17x128_S17x32768_S128x32768_0_0_1_1_n_n.rhsBatch by decide), dif_pos (show (1 : Fin S17x32768.rank) ∈ dot_S17x128_S17x32768_S128x32768_0_0_1_1_n_n.rhsNonContracting by decide)]
  rfl

/-- The product into a zero accumulator, entry `(j, q)`: the sum over the 17 contracted positions of the two
    operands' entries there. -/
theorem apply (prec : Option ContractPrecision) (L : FVec Ideal S17x128 .f32) (R : FVec Ideal S17x32768 .f32) (j : Fin 128) (q : Fin 32768) :
    matmul dot_S17x128_S17x32768_S128x32768_0_0_1_1_n_n prec L R (constant (F := Ideal) S128x32768 .f32 0x00000000#32) (ix2 j q)
      = ∑ k : Fin 17, L (ix2 k j) * R (ix2 k q) := by
  simp only [matmul]
  rw [Ideal.matmul_constant_zero_apply, ← Equiv.sum_comp (ValueIdx.contrEquiv1 dot_S17x128_S17x32768_S128x32768_0_0_1_1_n_n 17 rfl rfl).symm]
  refine Finset.sum_congr rfl fun k _ => ?_
  have hk := ValueIdx.contrEquiv1_symm_val dot_S17x128_S17x32768_S128x32768_0_0_1_1_n_n 17 rfl rfl k
  have el : dot_S17x128_S17x32768_S128x32768_0_0_1_1_n_n.lhsIdx (ix2 j q) ((ValueIdx.contrEquiv1 dot_S17x128_S17x32768_S128x32768_0_0_1_1_n_n 17 rfl rfl).symm k) = ix2 k j := funext fun a => Fin.ext (by
    match a with
    | ⟨0, _⟩ => exact (lhs_0 _ _).trans hk
    | ⟨1, _⟩ => exact lhs_1 _ _)
  have er : dot_S17x128_S17x32768_S128x32768_0_0_1_1_n_n.rhsIdx (ix2 j q) ((ValueIdx.contrEquiv1 dot_S17x128_S17x32768_S128x32768_0_0_1_1_n_n 17 rfl rfl).symm k) = ix2 k q := funext fun a => Fin.ext (by
    match a with
    | ⟨0, _⟩ => exact (rhs_0 _ _).trans hk
    | ⟨1, _⟩ => exact rhs_1 _ _)
  rw [el, er]

end Trunk

namespace Hidden

theorem lhs_0 (i : S96x32768.Idx) (q : dot_S128x96_S128x32768_S96x32768_0_0_1_1_n_n.contr.Idx) :
    (dot_S128x96_S128x32768_S96x32768_0_0_1_1_n_n.lhsIdx i q 0).val = (q ⟨0, by decide⟩).val := dot_S128x96_S128x32768_S96x32768_0_0_1_1_n_n.lhsIdx_val_of_single rfl i q
theorem lhs_1 (i : S96x32768.Idx) (q : dot_S128x96_S128x32768_S96x32768_0_0_1_1_n_n.contr.Idx) :
    (dot_S128x96_S128x32768_S96x32768_0_0_1_1_n_n.lhsIdx i q 1).val = (i 0).val := by
  unfold DotDims.lhsIdx
  rw [dif_neg (show ¬(1 : Fin S128x96.rank) ∈ dot_S128x96_S128x32768_S96x32768_0_0_1_1_n_n.lhsBatch by decide), dif_pos (show (1 : Fin S128x96.rank) ∈ dot_S128x96_S128x32768_S96x32768_0_0_1_1_n_n.lhsNonContracting by decide)]
  rfl
theorem rhs_0 (i : S96x32768.Idx) (q : dot_S128x96_S128x32768_S96x32768_0_0_1_1_n_n.contr.Idx) :
    (dot_S128x96_S128x32768_S96x32768_0_0_1_1_n_n.rhsIdx i q 0).val = (q ⟨0, by decide⟩).val := dot_S128x96_S128x32768_S96x32768_0_0_1_1_n_n.rhsIdx_val_of_single rfl i q
theorem rhs_1 (i : S96x32768.Idx) (q : dot_S128x96_S128x32768_S96x32768_0_0_1_1_n_n.contr.Idx) :
    (dot_S128x96_S128x32768_S96x32768_0_0_1_1_n_n.rhsIdx i q 1).val = (i 1).val := by
  unfold DotDims.rhsIdx
  rw [dif_neg (show ¬(1 : Fin S128x32768.rank) ∈ dot_S128x96_S128x32768_S96x32768_0_0_1_1_n_n.rhsBatch by decide), dif_pos (show (1 : Fin S128x32768.rank) ∈ dot_S128x96_S128x32768_S96x32768_0_0_1_1_n_n.rhsNonContracting by decide)]
  rfl

/-- The product into a zero accumulator, entry `(j, q)`: the sum over the 128 contracted positions of the two
    operands' entries there. -/
theorem apply (prec : Option ContractPrecision) (L : FVec Ideal S128x96 .f32) (R : FVec Ideal S128x32768 .f32) (j : Fin 96) (q : Fin 32768) :
    matmul dot_S128x96_S128x32768_S96x32768_0_0_1_1_n_n prec L R (constant (F := Ideal) S96x32768 .f32 0x00000000#32) (ix2 j q)
      = ∑ k : Fin 128, L (ix2 k j) * R (ix2 k q) := by
  simp only [matmul]
  rw [Ideal.matmul_constant_zero_apply, ← Equiv.sum_comp (ValueIdx.contrEquiv1 dot_S128x96_S128x32768_S96x32768_0_0_1_1_n_n 128 rfl rfl).symm]
  refine Finset.sum_congr rfl fun k _ => ?_
  have hk := ValueIdx.contrEquiv1_symm_val dot_S128x96_S128x32768_S96x32768_0_0_1_1_n_n 128 rfl rfl k
  have el : dot_S128x96_S128x32768_S96x32768_0_0_1_1_n_n.lhsIdx (ix2 j q) ((ValueIdx.contrEquiv1 dot_S128x96_S128x32768_S96x32768_0_0_1_1_n_n 128 rfl rfl).symm k) = ix2 k j := funext fun a => Fin.ext (by
    match a with
    | ⟨0, _⟩ => exact (lhs_0 _ _).trans hk
    | ⟨1, _⟩ => exact lhs_1 _ _)
  have er : dot_S128x96_S128x32768_S96x32768_0_0_1_1_n_n.rhsIdx (ix2 j q) ((ValueIdx.contrEquiv1 dot_S128x96_S128x32768_S96x32768_0_0_1_1_n_n 128 rfl rfl).symm k) = ix2 k q := funext fun a => Fin.ext (by
    match a with
    | ⟨0, _⟩ => exact (rhs_0 _ _).trans hk
    | ⟨1, _⟩ => exact rhs_1 _ _)
  rw [el, er]

end Hidden

namespace HiddenBias

theorem lhs_0 (i : S96x32768.Idx) (q : dot_S1x96_S1x32768_S96x32768_0_0_1_1_n_n.contr.Idx) :
    (dot_S1x96_S1x32768_S96x32768_0_0_1_1_n_n.lhsIdx i q 0).val = (q ⟨0, by decide⟩).val := dot_S1x96_S1x32768_S96x32768_0_0_1_1_n_n.lhsIdx_val_of_single rfl i q
theorem lhs_1 (i : S96x32768.Idx) (q : dot_S1x96_S1x32768_S96x32768_0_0_1_1_n_n.contr.Idx) :
    (dot_S1x96_S1x32768_S96x32768_0_0_1_1_n_n.lhsIdx i q 1).val = (i 0).val := by
  unfold DotDims.lhsIdx
  rw [dif_neg (show ¬(1 : Fin S1x96.rank) ∈ dot_S1x96_S1x32768_S96x32768_0_0_1_1_n_n.lhsBatch by decide), dif_pos (show (1 : Fin S1x96.rank) ∈ dot_S1x96_S1x32768_S96x32768_0_0_1_1_n_n.lhsNonContracting by decide)]
  rfl
theorem rhs_0 (i : S96x32768.Idx) (q : dot_S1x96_S1x32768_S96x32768_0_0_1_1_n_n.contr.Idx) :
    (dot_S1x96_S1x32768_S96x32768_0_0_1_1_n_n.rhsIdx i q 0).val = (q ⟨0, by decide⟩).val := dot_S1x96_S1x32768_S96x32768_0_0_1_1_n_n.rhsIdx_val_of_single rfl i q
theorem rhs_1 (i : S96x32768.Idx) (q : dot_S1x96_S1x32768_S96x32768_0_0_1_1_n_n.contr.Idx) :
    (dot_S1x96_S1x32768_S96x32768_0_0_1_1_n_n.rhsIdx i q 1).val = (i 1).val := by
  unfold DotDims.rhsIdx
  rw [dif_neg (show ¬(1 : Fin S1x32768.rank) ∈ dot_S1x96_S1x32768_S96x32768_0_0_1_1_n_n.rhsBatch by decide), dif_pos (show (1 : Fin S1x32768.rank) ∈ dot_S1x96_S1x32768_S96x32768_0_0_1_1_n_n.rhsNonContracting by decide)]
  rfl

/-- The product into a zero accumulator, entry `(j, q)`: the sum over the 1 contracted positions of the two
    operands' entries there. -/
theorem apply (prec : Option ContractPrecision) (L : FVec Ideal S1x96 .f32) (R : FVec Ideal S1x32768 .f32) (j : Fin 96) (q : Fin 32768) :
    matmul dot_S1x96_S1x32768_S96x32768_0_0_1_1_n_n prec L R (constant (F := Ideal) S96x32768 .f32 0x00000000#32) (ix2 j q)
      = ∑ k : Fin 1, L (ix2 k j) * R (ix2 k q) := by
  simp only [matmul]
  rw [Ideal.matmul_constant_zero_apply, ← Equiv.sum_comp (ValueIdx.contrEquiv1 dot_S1x96_S1x32768_S96x32768_0_0_1_1_n_n 1 rfl rfl).symm]
  refine Finset.sum_congr rfl fun k _ => ?_
  have hk := ValueIdx.contrEquiv1_symm_val dot_S1x96_S1x32768_S96x32768_0_0_1_1_n_n 1 rfl rfl k
  have el : dot_S1x96_S1x32768_S96x32768_0_0_1_1_n_n.lhsIdx (ix2 j q) ((ValueIdx.contrEquiv1 dot_S1x96_S1x32768_S96x32768_0_0_1_1_n_n 1 rfl rfl).symm k) = ix2 k j := funext fun a => Fin.ext (by
    match a with
    | ⟨0, _⟩ => exact (lhs_0 _ _).trans hk
    | ⟨1, _⟩ => exact lhs_1 _ _)
  have er : dot_S1x96_S1x32768_S96x32768_0_0_1_1_n_n.rhsIdx (ix2 j q) ((ValueIdx.contrEquiv1 dot_S1x96_S1x32768_S96x32768_0_0_1_1_n_n 1 rfl rfl).symm k) = ix2 k q := funext fun a => Fin.ext (by
    match a with
    | ⟨0, _⟩ => exact (rhs_0 _ _).trans hk
    | ⟨1, _⟩ => exact rhs_1 _ _)
  rw [el, er]

end HiddenBias

namespace Out

theorem lhs_0 (i : S9x32768.Idx) (q : dot_S96x9_S96x32768_S9x32768_0_0_1_1_n_n.contr.Idx) :
    (dot_S96x9_S96x32768_S9x32768_0_0_1_1_n_n.lhsIdx i q 0).val = (q ⟨0, by decide⟩).val := dot_S96x9_S96x32768_S9x32768_0_0_1_1_n_n.lhsIdx_val_of_single rfl i q
theorem lhs_1 (i : S9x32768.Idx) (q : dot_S96x9_S96x32768_S9x32768_0_0_1_1_n_n.contr.Idx) :
    (dot_S96x9_S96x32768_S9x32768_0_0_1_1_n_n.lhsIdx i q 1).val = (i 0).val := by
  unfold DotDims.lhsIdx
  rw [dif_neg (show ¬(1 : Fin S96x9.rank) ∈ dot_S96x9_S96x32768_S9x32768_0_0_1_1_n_n.lhsBatch by decide), dif_pos (show (1 : Fin S96x9.rank) ∈ dot_S96x9_S96x32768_S9x32768_0_0_1_1_n_n.lhsNonContracting by decide)]
  rfl
theorem rhs_0 (i : S9x32768.Idx) (q : dot_S96x9_S96x32768_S9x32768_0_0_1_1_n_n.contr.Idx) :
    (dot_S96x9_S96x32768_S9x32768_0_0_1_1_n_n.rhsIdx i q 0).val = (q ⟨0, by decide⟩).val := dot_S96x9_S96x32768_S9x32768_0_0_1_1_n_n.rhsIdx_val_of_single rfl i q
theorem rhs_1 (i : S9x32768.Idx) (q : dot_S96x9_S96x32768_S9x32768_0_0_1_1_n_n.contr.Idx) :
    (dot_S96x9_S96x32768_S9x32768_0_0_1_1_n_n.rhsIdx i q 1).val = (i 1).val := by
  unfold DotDims.rhsIdx
  rw [dif_neg (show ¬(1 : Fin S96x32768.rank) ∈ dot_S96x9_S96x32768_S9x32768_0_0_1_1_n_n.rhsBatch by decide), dif_pos (show (1 : Fin S96x32768.rank) ∈ dot_S96x9_S96x32768_S9x32768_0_0_1_1_n_n.rhsNonContracting by decide)]
  rfl

/-- The product into a zero accumulator, entry `(j, q)`: the sum over the 96 contracted positions of the two
    operands' entries there. -/
theorem apply (prec : Option ContractPrecision) (L : FVec Ideal S96x9 .f32) (R : FVec Ideal S96x32768 .f32) (j : Fin 9) (q : Fin 32768) :
    matmul dot_S96x9_S96x32768_S9x32768_0_0_1_1_n_n prec L R (constant (F := Ideal) S9x32768 .f32 0x00000000#32) (ix2 j q)
      = ∑ k : Fin 96, L (ix2 k j) * R (ix2 k q) := by
  simp only [matmul]
  rw [Ideal.matmul_constant_zero_apply, ← Equiv.sum_comp (ValueIdx.contrEquiv1 dot_S96x9_S96x32768_S9x32768_0_0_1_1_n_n 96 rfl rfl).symm]
  refine Finset.sum_congr rfl fun k _ => ?_
  have hk := ValueIdx.contrEquiv1_symm_val dot_S96x9_S96x32768_S9x32768_0_0_1_1_n_n 96 rfl rfl k
  have el : dot_S96x9_S96x32768_S9x32768_0_0_1_1_n_n.lhsIdx (ix2 j q) ((ValueIdx.contrEquiv1 dot_S96x9_S96x32768_S9x32768_0_0_1_1_n_n 96 rfl rfl).symm k) = ix2 k j := funext fun a => Fin.ext (by
    match a with
    | ⟨0, _⟩ => exact (lhs_0 _ _).trans hk
    | ⟨1, _⟩ => exact lhs_1 _ _)
  have er : dot_S96x9_S96x32768_S9x32768_0_0_1_1_n_n.rhsIdx (ix2 j q) ((ValueIdx.contrEquiv1 dot_S96x9_S96x32768_S9x32768_0_0_1_1_n_n 96 rfl rfl).symm k) = ix2 k q := funext fun a => Fin.ext (by
    match a with
    | ⟨0, _⟩ => exact (rhs_0 _ _).trans hk
    | ⟨1, _⟩ => exact rhs_1 _ _)
  rw [el, er]

end Out

namespace OutBias

theorem lhs_0 (i : S9x32768.Idx) (q : dot_S1x9_S1x32768_S9x32768_0_0_1_1_n_n.contr.Idx) :
    (dot_S1x9_S1x32768_S9x32768_0_0_1_1_n_n.lhsIdx i q 0).val = (q ⟨0, by decide⟩).val := dot_S1x9_S1x32768_S9x32768_0_0_1_1_n_n.lhsIdx_val_of_single rfl i q
theorem lhs_1 (i : S9x32768.Idx) (q : dot_S1x9_S1x32768_S9x32768_0_0_1_1_n_n.contr.Idx) :
    (dot_S1x9_S1x32768_S9x32768_0_0_1_1_n_n.lhsIdx i q 1).val = (i 0).val := by
  unfold DotDims.lhsIdx
  rw [dif_neg (show ¬(1 : Fin S1x9.rank) ∈ dot_S1x9_S1x32768_S9x32768_0_0_1_1_n_n.lhsBatch by decide), dif_pos (show (1 : Fin S1x9.rank) ∈ dot_S1x9_S1x32768_S9x32768_0_0_1_1_n_n.lhsNonContracting by decide)]
  rfl
theorem rhs_0 (i : S9x32768.Idx) (q : dot_S1x9_S1x32768_S9x32768_0_0_1_1_n_n.contr.Idx) :
    (dot_S1x9_S1x32768_S9x32768_0_0_1_1_n_n.rhsIdx i q 0).val = (q ⟨0, by decide⟩).val := dot_S1x9_S1x32768_S9x32768_0_0_1_1_n_n.rhsIdx_val_of_single rfl i q
theorem rhs_1 (i : S9x32768.Idx) (q : dot_S1x9_S1x32768_S9x32768_0_0_1_1_n_n.contr.Idx) :
    (dot_S1x9_S1x32768_S9x32768_0_0_1_1_n_n.rhsIdx i q 1).val = (i 1).val := by
  unfold DotDims.rhsIdx
  rw [dif_neg (show ¬(1 : Fin S1x32768.rank) ∈ dot_S1x9_S1x32768_S9x32768_0_0_1_1_n_n.rhsBatch by decide), dif_pos (show (1 : Fin S1x32768.rank) ∈ dot_S1x9_S1x32768_S9x32768_0_0_1_1_n_n.rhsNonContracting by decide)]
  rfl

/-- The product into a zero accumulator, entry `(j, q)`: the sum over the 1 contracted positions of the two
    operands' entries there. -/
theorem apply (prec : Option ContractPrecision) (L : FVec Ideal S1x9 .f32) (R : FVec Ideal S1x32768 .f32) (j : Fin 9) (q : Fin 32768) :
    matmul dot_S1x9_S1x32768_S9x32768_0_0_1_1_n_n prec L R (constant (F := Ideal) S9x32768 .f32 0x00000000#32) (ix2 j q)
      = ∑ k : Fin 1, L (ix2 k j) * R (ix2 k q) := by
  simp only [matmul]
  rw [Ideal.matmul_constant_zero_apply, ← Equiv.sum_comp (ValueIdx.contrEquiv1 dot_S1x9_S1x32768_S9x32768_0_0_1_1_n_n 1 rfl rfl).symm]
  refine Finset.sum_congr rfl fun k _ => ?_
  have hk := ValueIdx.contrEquiv1_symm_val dot_S1x9_S1x32768_S9x32768_0_0_1_1_n_n 1 rfl rfl k
  have el : dot_S1x9_S1x32768_S9x32768_0_0_1_1_n_n.lhsIdx (ix2 j q) ((ValueIdx.contrEquiv1 dot_S1x9_S1x32768_S9x32768_0_0_1_1_n_n 1 rfl rfl).symm k) = ix2 k j := funext fun a => Fin.ext (by
    match a with
    | ⟨0, _⟩ => exact (lhs_0 _ _).trans hk
    | ⟨1, _⟩ => exact lhs_1 _ _)
  have er : dot_S1x9_S1x32768_S9x32768_0_0_1_1_n_n.rhsIdx (ix2 j q) ((ValueIdx.contrEquiv1 dot_S1x9_S1x32768_S9x32768_0_0_1_1_n_n 1 rfl rfl).symm k) = ix2 k q := funext fun a => Fin.ext (by
    match a with
    | ⟨0, _⟩ => exact (rhs_0 _ _).trans hk
    | ⟨1, _⟩ => exact rhs_1 _ _)
  rw [el, er]

end OutBias

end Cert.KernelIdeal.Hand

end
-- ==== Proof.LibConcatRows.lean ====
/-
  Three matrices of one width stacked along the rows, read at an index: the row coordinate falls in exactly one of
  the three row ranges, and the stack there is that piece at the row counted from the piece's first.
-/
import Idealize.ShloMosaic.Lib.Pipeline.Value
import Idealize.ShloMosaic.Lib.ValueIdx

namespace LibConcatRows

open Idealize.ShloMosaic Idealize.ShloMosaic.ValueIdx

variable {α : Type} {a b c t n : Nat}

/-- A row of the first piece. -/
theorem stack3_fst (x : (⟨2, ![a, n]⟩ : Shape).Idx → α) (y : (⟨2, ![b, n]⟩ : Shape).Idx → α) (z : (⟨2, ![c, n]⟩ : Shape).Idx → α)
    (h : Shape.Concatenates [(⟨2, ![a, n]⟩ : Shape), ⟨2, ![b, n]⟩, ⟨2, ![c, n]⟩] ⟨2, ![t, n]⟩ 0)
    (k : Fin t) (q : Fin n) (hk : k.val < a) :
    concatenate ⟨2, ![t, n]⟩ 0 [⟨⟨2, ![a, n]⟩, x⟩, ⟨⟨2, ![b, n]⟩, y⟩, ⟨⟨2, ![c, n]⟩, z⟩] h (ix2 k q) = x (ix2 ⟨k.val, hk⟩ q) :=
  concatenate_apply_piece (t := ⟨2, ![t, n]⟩) 0 [⟨⟨2, ![a, n]⟩, x⟩, ⟨⟨2, ![b, n]⟩, y⟩, ⟨⟨2, ![c, n]⟩, z⟩] h (ix2 k q) 0 (by show 0 < 3; omega) ⟨2, ![a, n]⟩ x rfl rfl 0 rfl (ix2 ⟨k.val, hk⟩ q)
    (fun d hd => by match d with | ⟨0, _⟩ => exact absurd rfl hd | ⟨1, _⟩ => rfl)
    (by show 0 + k.val = k.val; omega)

/-- A row of the second piece. -/
theorem stack3_snd (x : (⟨2, ![a, n]⟩ : Shape).Idx → α) (y : (⟨2, ![b, n]⟩ : Shape).Idx → α) (z : (⟨2, ![c, n]⟩ : Shape).Idx → α)
    (h : Shape.Concatenates [(⟨2, ![a, n]⟩ : Shape), ⟨2, ![b, n]⟩, ⟨2, ![c, n]⟩] ⟨2, ![t, n]⟩ 0)
    (k : Fin t) (q : Fin n) (hk : a ≤ k.val) (hk' : k.val - a < b) :
    concatenate ⟨2, ![t, n]⟩ 0 [⟨⟨2, ![a, n]⟩, x⟩, ⟨⟨2, ![b, n]⟩, y⟩, ⟨⟨2, ![c, n]⟩, z⟩] h (ix2 k q) = y (ix2 ⟨k.val - a, hk'⟩ q) :=
  concatenate_apply_piece (t := ⟨2, ![t, n]⟩) 0 [⟨⟨2, ![a, n]⟩, x⟩, ⟨⟨2, ![b, n]⟩, y⟩, ⟨⟨2, ![c, n]⟩, z⟩] h (ix2 k q) 1 (by show 1 < 3; omega) ⟨2, ![b, n]⟩ y rfl rfl a (by simp) (ix2 ⟨k.val - a, hk'⟩ q)
    (fun d hd => by match d with | ⟨0, _⟩ => exact absurd rfl hd | ⟨1, _⟩ => rfl)
    (by show a + (k.val - a) = k.val; omega)

/-- A row of the third piece. -/
theorem stack3_thd (x : (⟨2, ![a, n]⟩ : Shape).Idx → α) (y : (⟨2, ![b, n]⟩ : Shape).Idx → α) (z : (⟨2, ![c, n]⟩ : Shape).Idx → α)
    (h : Shape.Concatenates [(⟨2, ![a, n]⟩ : Shape), ⟨2, ![b, n]⟩, ⟨2, ![c, n]⟩] ⟨2, ![t, n]⟩ 0)
    (k : Fin t) (q : Fin n) (hk : a + b ≤ k.val) (hk' : k.val - (a + b) < c) :
    concatenate ⟨2, ![t, n]⟩ 0 [⟨⟨2, ![a, n]⟩, x⟩, ⟨⟨2, ![b, n]⟩, y⟩, ⟨⟨2, ![c, n]⟩, z⟩] h (ix2 k q) = z (ix2 ⟨k.val - (a + b), hk'⟩ q) :=
  concatenate_apply_piece (t := ⟨2, ![t, n]⟩) 0 [⟨⟨2, ![a, n]⟩, x⟩, ⟨⟨2, ![b, n]⟩, y⟩, ⟨⟨2, ![c, n]⟩, z⟩] h (ix2 k q) 2 (by show 2 < 3; omega) ⟨2, ![c, n]⟩ z rfl rfl (a + b) (by simp) (ix2 ⟨k.val - (a + b), hk'⟩ q)
    (fun d hd => by match d with | ⟨0, _⟩ => exact absurd rfl hd | ⟨1, _⟩ => rfl)
    (by show a + b + (k.val - (a + b)) = k.val; omega)

end LibConcatRows
-- ==== Proof.Spec.lean ====
/-
  The network both programs compute, as plain functions on the extended reals, and the law that joins their two
  arrangements.

  Per batch row `b` the network is three affine layers, the first two followed by `max(·, 0)`:
    trunk  b j = max (∑ k < 16,  xx b k · wfb k j + bias j) 0          (j < 128; xx = the state row then the previous one)
    hidden b j = max (∑ k < 128, trunk b k · w1 k j + bias (128 + j)) 0 (j < 96)
    out    b j =      ∑ k < 96,  hidden b k · w2 k j + bias (256 + j)   (j < 128)
  and the three results are columns 0–3, 4 and 5–8 of `out`.

  The transposed arrangement keeps the batch on the trailing axis and feeds every bias through a product with `1`:
  the trunk contracts 17 terms — eight state features, the bias against `1`, eight previous-state features — and
  the two later layers add a ONE-term sum `bias · 1` to their contraction. The two arrangements agree term by term:
  only commutativity of the product, `x · 1 = x`, and re-association of a finite sum are used, all of which hold on
  the extended reals with no finiteness assumption.
-/
import Idealize.ShloMosaic.PureOps.Ideal
import Idealize.ShloMosaic.Lib.ValueIdx

noncomputable section

namespace A2C

open Idealize.ShloMosaic Idealize.ShloMosaic.ValueIdx

variable (st sp : (⟨2, ![262144, 8]⟩ : Shape).Idx → EReal) (wfb : (⟨2, ![16, 128]⟩ : Shape).Idx → EReal)
  (w1 : (⟨2, ![128, 96]⟩ : Shape).Idx → EReal) (w2 : (⟨2, ![96, 128]⟩ : Shape).Idx → EReal)
  (bias : (⟨2, ![1, 384]⟩ : Shape).Idx → EReal)

/-! ## The row-major arrangement -/

/-- Row `b` of the two states laid side by side: features 0–7 the state's, 8–15 the previous state's. -/
def xx (b : Fin 262144) (k : Fin 16) : EReal :=
  if h : k.val < 8 then st (ix2 b ⟨k.val, h⟩) else sp (ix2 b ⟨k.val - 8, by omega⟩)

/-- The shared feature layer of both states. -/
def trunk (b : Fin 262144) (j : Fin 128) : EReal :=
  max (∑ k : Fin 16, xx st sp b k * wfb (ix2 k j) + bias (ix2 0 ⟨j.val, by omega⟩)) 0

/-- The three heads' hidden layers, side by side. -/
def hidden (b : Fin 262144) (j : Fin 96) : EReal :=
  max (∑ k : Fin 128, trunk st sp wfb bias b k * w1 (ix2 k j) + bias (ix2 0 ⟨128 + j.val, by omega⟩)) 0

/-- The packed output row: policy, critic, inverse model, padding. -/
def out (b : Fin 262144) (j : Fin 128) : EReal :=
  ∑ k : Fin 96, hidden st sp wfb w1 bias b k * w2 (ix2 k j) + bias (ix2 0 ⟨256 + j.val, by omega⟩)

/-- Columns 0–3 of the packed output. -/
def policy : (⟨2, ![262144, 4]⟩ : Shape).Idx → EReal := fun i =>
  out st sp wfb w1 w2 bias (i 0) ⟨(i 1).val, by have := idx2_lt1 i; omega⟩
/-- Column 4. -/
def critic : (⟨2, ![262144, 1]⟩ : Shape).Idx → EReal := fun i =>
  out st sp wfb w1 w2 bias (i 0) ⟨4 + (i 1).val, by have := idx2_lt1 i; omega⟩
/-- Columns 5–8. -/
def inverse : (⟨2, ![262144, 4]⟩ : Shape).Idx → EReal := fun i =>
  out st sp wfb w1 w2 bias (i 0) ⟨5 + (i 1).val, by have := idx2_lt1 i; omega⟩

/-! ## The transposed arrangement -/

/-- Column `b` of the stacked input: eight state features, a one, eight previous-state features. -/
def x2 (k : Fin 17) (b : Fin 262144) : EReal :=
  if h : k.val < 8 then st (ix2 b ⟨k.val, h⟩)
  else if k.val = 8 then 1 else sp (ix2 b ⟨k.val - 9, by omega⟩)

/-- The stacked feature weight: rows 0–7 of `wfb`, the bias row, rows 8–15 of `wfb`. -/
def wf2 (k : Fin 17) (j : Fin 128) : EReal :=
  if h : k.val < 8 then wfb (ix2 ⟨k.val, by omega⟩ j)
  else if k.val = 8 then bias (ix2 0 ⟨j.val, by omega⟩) else wfb (ix2 ⟨k.val - 1, by omega⟩ j)

def trunkT (j : Fin 128) (b : Fin 262144) : EReal := max (∑ k : Fin 17, wf2 wfb bias k j * x2 st sp k b) 0

def hiddenT (j : Fin 96) (b : Fin 262144) : EReal :=
  max ((∑ k : Fin 128, w1 (ix2 k j) * trunkT st sp wfb bias k b)
    + ∑ _k : Fin 1, bias (ix2 0 ⟨128 + j.val, by omega⟩) * 1) 0

def outT (j : Fin 9) (b : Fin 262144) : EReal :=
  (∑ k : Fin 96, w2 (ix2 k ⟨j.val, by omega⟩) * hiddenT st sp wfb w1 bias k b)
    + ∑ _k : Fin 1, bias (ix2 0 ⟨256 + j.val, by omega⟩) * 1

/-! ## Two short sums written out -/

theorem sum16 (f : Fin 16 → EReal) : ∑ k, f k = f ⟨0, by omega⟩ + (f ⟨1, by omega⟩ + (f ⟨2, by omega⟩ + (f ⟨3, by omega⟩ + (f ⟨4, by omega⟩ + (f ⟨5, by omega⟩ + (f ⟨6, by omega⟩ + (f ⟨7, by omega⟩ + (f ⟨8, by omega⟩ + (f ⟨9, by omega⟩ + (f ⟨10, by omega⟩ + (f ⟨11, by omega⟩ + (f ⟨12, by omega⟩ + (f ⟨13, by omega⟩ + (f ⟨14, by omega⟩ + (f ⟨15, by omega⟩))))))))))))))) := by
  simp only [Fin.sum_univ_succ, Fin.sum_univ_zero, add_zero]; rfl

theorem sum17 (f : Fin 17 → EReal) : ∑ k, f k = f ⟨0, by omega⟩ + (f ⟨1, by omega⟩ + (f ⟨2, by omega⟩ + (f ⟨3, by omega⟩ + (f ⟨4, by omega⟩ + (f ⟨5, by omega⟩ + (f ⟨6, by omega⟩ + (f ⟨7, by omega⟩ + (f ⟨8, by omega⟩ + (f ⟨9, by omega⟩ + (f ⟨10, by omega⟩ + (f ⟨11, by omega⟩ + (f ⟨12, by omega⟩ + (f ⟨13, by omega⟩ + (f ⟨14, by omega⟩ + (f ⟨15, by omega⟩ + (f ⟨16, by omega⟩)))))))))))))))) := by
  simp only [Fin.sum_univ_succ, Fin.sum_univ_zero, add_zero]; rfl

/-! ## The two arrangements agree -/

/-- The 17-term contraction is the 16-term one plus the bias: term 8 is `bias · 1`, the terms before it are the
    state's, those after it the previous state's shifted by one. -/
theorem trunk_sum (b : Fin 262144) (j : Fin 128) :
    ∑ k : Fin 17, wf2 wfb bias k j * x2 st sp k b
      = ∑ k : Fin 16, xx st sp b k * wfb (ix2 k j) + bias (ix2 0 ⟨j.val, by omega⟩) := by
  rw [sum17, sum16]
  simp only [wf2, x2, xx, Nat.reduceAdd, Nat.reduceLT, Nat.reduceEqDiff, Nat.reduceSub,
    dite_true, dite_false, if_true, if_false, mul_one, Nat.lt_irrefl, reduceDIte, reduceIte]
  ac_rfl

/-- The feature layer, transposed. -/
theorem trunkT_eq (j : Fin 128) (b : Fin 262144) : trunkT st sp wfb bias j b = trunk st sp wfb bias b j := by
  unfold trunkT trunk; rw [trunk_sum]

/-- The hidden layers, transposed: the one-term sum is the bias. -/
theorem hiddenT_eq (j : Fin 96) (b : Fin 262144) : hiddenT st sp wfb w1 bias j b = hidden st sp wfb w1 bias b j := by
  unfold hiddenT hidden
  simp only [trunkT_eq, Fin.sum_univ_one, mul_one]
  have e : ∑ k : Fin 128, w1 (ix2 k j) * trunk st sp wfb bias b k
      = ∑ k : Fin 128, trunk st sp wfb bias b k * w1 (ix2 k j) :=
    Finset.sum_congr rfl fun k _ => mul_comm (w1 (ix2 k j)) (trunk st sp wfb bias b k)
  rw [e]

/-- The packed output, transposed. -/
theorem outT_eq (j : Fin 9) (b : Fin 262144) :
    outT st sp wfb w1 w2 bias j b = out st sp wfb w1 w2 bias b ⟨j.val, by omega⟩ := by
  unfold outT out
  simp only [hiddenT_eq, Fin.sum_univ_one, mul_one]
  have e : ∑ k : Fin 96, w2 (ix2 k ⟨j.val, by omega⟩) * hidden st sp wfb w1 bias b k
      = ∑ k : Fin 96, hidden st sp wfb w1 bias b k * w2 (ix2 k ⟨j.val, by omega⟩) :=
    Finset.sum_congr rfl fun k _ => mul_comm (w2 (ix2 k ⟨j.val, by omega⟩)) (hidden st sp wfb w1 bias b k)
  rw [e]

end A2C

end
-- ==== Proof.KernelPayload.lean ====
/-
  The kernel body's arithmetic at one entry.

  The body stacks the two transposed state blocks around a row of ones, stacks the two halves of the feature weight
  around the first bias slot, and contracts the two stacks (17 terms) into the feature layer; the later layers
  contract the loaded weights against the layer before and add a one-term contraction of a bias slot against the
  row of ones. Entry `(j, q)` of the packed 9-row result therefore depends on column `q` of the state blocks
  only. Given what every loaded block holds — the state blocks hold rows `col q` of the two state arrays
  transposed, the weight and bias blocks the corresponding pieces of the packed parameters — that entry is the
  transposed arrangement's `outT j (col q)` of the specification.
-/
import proofs.«142301_g2000202583906136_pallasbulk_95_21_alg».proof.Proof.Gen.KernelIdeal.Skeleton
import proofs.«142301_g2000202583906136_pallasbulk_95_21_alg».proof.Proof.KernelMatmul
import proofs.«142301_g2000202583906136_pallasbulk_95_21_alg».proof.Proof.LibConcatRows
import proofs.«142301_g2000202583906136_pallasbulk_95_21_alg».proof.Proof.Spec
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-- The word `0x3F800000` is the number one. -/
theorem one_f32 : Ideal.ofBits .f32 0x3F800000#32 = 1 := by
  simp [Ideal.ofBits, Ideal.ieee]
  rw [← EReal.coe_mul, ← EReal.coe_one]
  congr 1
  norm_num

variable (v1 v3 : Vec Ideal S8x32768 .f32) (v6 : Vec Ideal S8x128 .f32) (v7 : Vec Ideal S1x128 .f32)
  (v8 : Vec Ideal S8x128 .f32) (v13 : Vec Ideal S128x96 .f32) (v15 : Vec Ideal S1x96 .f32) (v20 : Vec Ideal S96x9 .f32)
  (v22 : Vec Ideal S1x9 .f32)

/-! ## The body's intermediate values, named -/

/-- The row of ones. -/
def onesRow : FVec Ideal S1x32768 .f32 := broadcast S1x32768 (Scalar.ofBits .f32 0x3F800000#32)

/-- State block, ones, previous-state block, stacked along the rows. -/
def stackedIn : FVec Ideal S17x32768 .f32 :=
  concatenate S17x32768 0 [⟨S8x32768, shapeCast S8x32768 v1 shapeCasts_S8x32768_S8x32768⟩, ⟨S1x32768, onesRow⟩,
    ⟨S8x32768, shapeCast S8x32768 v3 shapeCasts_S8x32768_S8x32768⟩] concatenates_S8x32768_S1x32768_S8x32768_S17x32768_d0

/-- Upper half of the feature weight, the bias slot, lower half, stacked along the rows. -/
def stackedW : FVec Ideal S17x128 .f32 :=
  concatenate S17x128 0 [⟨S8x128, v6⟩, ⟨S1x128, v7⟩, ⟨S8x128, v8⟩] concatenates_S8x128_S1x128_S8x128_S17x128_d0

def trunkV : FVec Ideal S128x32768 .f32 :=
  maximumf (matmul (φ₁ := .f32) (φ₂ := .f32) dot_S17x128_S17x32768_S128x32768_0_0_1_1_n_n none (stackedW v6 v7 v8) (stackedIn v1 v3)
    (constant S128x32768 .f32 0x00000000#32)) (broadcast S128x32768 (Scalar.ofBits .f32 0x00000000#32))

def hiddenV : FVec Ideal S96x32768 .f32 :=
  maximumf (addf (matmul (φ₁ := .f32) (φ₂ := .f32) dot_S128x96_S128x32768_S96x32768_0_0_1_1_n_n none v13 (trunkV v1 v3 v6 v7 v8) (constant S96x32768 .f32 0x00000000#32))
      (matmul (φ₁ := .f32) (φ₂ := .f32) dot_S1x96_S1x32768_S96x32768_0_0_1_1_n_n none v15 onesRow (constant S96x32768 .f32 0x00000000#32)))
    (broadcast S96x32768 (Scalar.ofBits .f32 0x00000000#32))

def outV : FVec Ideal S9x32768 .f32 :=
  addf (matmul (φ₁ := .f32) (φ₂ := .f32) dot_S96x9_S96x32768_S9x32768_0_0_1_1_n_n none v20 (hiddenV v1 v3 v6 v7 v8 v13 v15) (constant S9x32768 .f32 0x00000000#32))
    (matmul (φ₁ := .f32) (φ₂ := .f32) dot_S1x9_S1x32768_S9x32768_0_0_1_1_n_n none v22 onesRow (constant S9x32768 .f32 0x00000000#32))

/-- The packed 9-row payload is that chain. -/
theorem pay2_eq : k0_pay2 v1 v3 v6 v7 v8 v13 v15 v20 v22 = outV v1 v3 v6 v7 v8 v13 v15 v20 v22 := rfl

/-! ## Read at an entry, against the specification -/

variable (st sp : (⟨2, ![262144, 8]⟩ : Shape).Idx → EReal) (wfb : (⟨2, ![16, 128]⟩ : Shape).Idx → EReal)
  (w1 : (⟨2, ![128, 96]⟩ : Shape).Idx → EReal) (w2 : (⟨2, ![96, 128]⟩ : Shape).Idx → EReal)
  (bias : (⟨2, ![1, 384]⟩ : Shape).Idx → EReal) (col : Fin 32768 → Fin 262144)

theorem onesRow_apply (i : S1x32768.Idx) : onesRow i = 1 := one_f32

theorem zero_apply : (Scalar.ofBits .f32 0x00000000#32 : Ideal .f32) = 0 := Ideal.ofBits_zero_f32

/-- The stacked input at `(k, q)` is the specification's stacked column `col q` at `k`. -/
theorem stackedIn_apply (hs : ∀ (k : Fin 8) (q : Fin 32768), v1 (ix2 k q) = st (ix2 (col q) k))
    (hp : ∀ (k : Fin 8) (q : Fin 32768), v3 (ix2 k q) = sp (ix2 (col q) k)) (k : Fin 17) (q : Fin 32768) :
    stackedIn v1 v3 (ix2 k q) = A2C.x2 st sp k (col q) := by
  unfold stackedIn A2C.x2
  by_cases h1 : k.val < 8
  · rw [dif_pos h1]
    refine (LibConcatRows.stack3_fst _ _ _ _ k q h1).trans ?_
    rw [shapeCast_self]; exact hs _ _
  · rw [dif_neg h1]
    by_cases h2 : k.val = 8
    · rw [if_pos h2]
      refine (LibConcatRows.stack3_snd _ _ _ _ k q (by omega) (by omega)).trans ?_
      exact onesRow_apply _
    · rw [if_neg h2]
      have hk := k.isLt
      refine (LibConcatRows.stack3_thd _ _ _ _ k q (by omega) (by omega)).trans ?_
      rw [shapeCast_self]; exact hp _ _

/-- The stacked weight at `(k, j)` is the specification's. -/
theorem stackedW_apply (h6 : ∀ (k : Fin 8) (j : Fin 128), v6 (ix2 k j) = wfb (ix2 ⟨k.val, by omega⟩ j))
    (h7 : ∀ j : Fin 128, v7 (ix2 0 j) = bias (ix2 0 ⟨j.val, by omega⟩))
    (h8 : ∀ (k : Fin 8) (j : Fin 128), v8 (ix2 k j) = wfb (ix2 ⟨8 + k.val, by omega⟩ j)) (k : Fin 17) (j : Fin 128) :
    stackedW v6 v7 v8 (ix2 k j) = A2C.wf2 wfb bias k j := by
  unfold stackedW A2C.wf2
  by_cases h1 : k.val < 8
  · rw [dif_pos h1]
    refine (LibConcatRows.stack3_fst _ _ _ _ k j h1).trans ?_
    exact h6 _ _
  · rw [dif_neg h1]
    by_cases h2 : k.val = 8
    · rw [if_pos h2]
      refine (LibConcatRows.stack3_snd _ _ _ _ k j (by omega) (by omega)).trans ?_
      have e : (⟨k.val - 8, by omega⟩ : Fin 1) = 0 := Fin.ext (by show k.val - 8 = 0; omega)
      rw [e]; exact h7 _
    · rw [if_neg h2]
      have hk := k.isLt
      refine (LibConcatRows.stack3_thd _ _ _ _ k j (by omega) (by omega)).trans ?_
      rw [h8]
      exact congrArg wfb (congrArg (fun r => ix2 r j) (Fin.ext (by show 8 + (k.val - (8 + 1)) = k.val - 1; omega)))

/-! ## The three layers -/

section Layers
variable (hs : ∀ (k : Fin 8) (q : Fin 32768), v1 (ix2 k q) = st (ix2 (col q) k))
  (hp : ∀ (k : Fin 8) (q : Fin 32768), v3 (ix2 k q) = sp (ix2 (col q) k))
  (h6 : ∀ (k : Fin 8) (j : Fin 128), v6 (ix2 k j) = wfb (ix2 ⟨k.val, by omega⟩ j))
  (h7 : ∀ j : Fin 128, v7 (ix2 0 j) = bias (ix2 0 ⟨j.val, by omega⟩))
  (h8 : ∀ (k : Fin 8) (j : Fin 128), v8 (ix2 k j) = wfb (ix2 ⟨8 + k.val, by omega⟩ j))
  (h13 : ∀ (k : Fin 128) (j : Fin 96), v13 (ix2 k j) = w1 (ix2 k j))
  (h15 : ∀ j : Fin 96, v15 (ix2 0 j) = bias (ix2 0 ⟨128 + j.val, by omega⟩))
  (h20 : ∀ (k : Fin 96) (j : Fin 9), v20 (ix2 k j) = w2 (ix2 k ⟨j.val, by omega⟩))
  (h22 : ∀ j : Fin 9, v22 (ix2 0 j) = bias (ix2 0 ⟨256 + j.val, by omega⟩))

include hs hp h6 h7 h8 in
/-- The feature layer: the 17-term contraction of the two stacks, clipped below at zero. -/
theorem trunkV_apply (j : Fin 128) (q : Fin 32768) :
    trunkV v1 v3 v6 v7 v8 (ix2 j q) = A2C.trunkT st sp wfb bias j (col q) := by
  unfold trunkV A2C.trunkT
  rw [maximumf_apply, Trunk.apply, broadcast_apply, zero_apply]
  refine congrArg (fun x => max x 0) (Finset.sum_congr rfl fun k _ => ?_)
  rw [stackedW_apply v6 v7 v8 wfb bias h6 h7 h8, stackedIn_apply v1 v3 st sp col hs hp]

include hs hp h6 h7 h8 h13 h15 in
/-- The hidden layers: the weight against the feature layer, plus the bias slot against the ones. -/
theorem hiddenV_apply (j : Fin 96) (q : Fin 32768) :
    hiddenV v1 v3 v6 v7 v8 v13 v15 (ix2 j q) = A2C.hiddenT st sp wfb w1 bias j (col q) := by
  unfold hiddenV A2C.hiddenT
  rw [maximumf_apply, addf_apply, Hidden.apply, HiddenBias.apply, broadcast_apply, zero_apply]
  refine congrArg (fun x => max x 0) (congrArg₂ (· + ·) (Finset.sum_congr rfl fun k _ => ?_) (Finset.sum_congr rfl fun k _ => ?_))
  · rw [h13, trunkV_apply v1 v3 v6 v7 v8 st sp wfb bias col hs hp h6 h7 h8]
  · rw [Fin.fin_one_eq_zero k, h15, onesRow_apply]

include hs hp h6 h7 h8 h13 h15 h20 h22 in
/-- The packed output rows. -/
theorem outV_apply (j : Fin 9) (q : Fin 32768) :
    outV v1 v3 v6 v7 v8 v13 v15 v20 v22 (ix2 j q) = A2C.outT st sp wfb w1 w2 bias j (col q) := by
  unfold outV A2C.outT
  rw [addf_apply, Out.apply, OutBias.apply]
  refine congrArg₂ (· + ·) (Finset.sum_congr rfl fun k _ => ?_) (Finset.sum_congr rfl fun k _ => ?_)
  · rw [h20, hiddenV_apply v1 v3 v6 v7 v8 v13 v15 st sp wfb w1 bias col hs hp h6 h7 h8 h13 h15]
  · rw [Fin.fin_one_eq_zero k, h22, onesRow_apply]

include hs hp h6 h7 h8 h13 h15 h20 h22 in
/-- The 9-row payload at `(j, q)` is the row-major network's packed output of batch row `col q`, column `j`. -/
theorem pay2_apply (j : Fin 9) (q : Fin 32768) :
    k0_pay2 v1 v3 v6 v7 v8 v13 v15 v20 v22 (ix2 j q) = A2C.out st sp wfb w1 w2 bias (col q) ⟨j.val, by omega⟩ := by
  rw [pay2_eq, outV_apply v1 v3 v6 v7 v8 v13 v15 v20 v22 st sp wfb w1 w2 bias col hs hp h6 h7 h8 h13 h15 h20 h22, A2C.outT_eq]

end Layers

end Cert.KernelIdeal.Hand

end
-- ==== Proof.KernelBlocks.lean ====
/-
  From the kernel's blocks to its three result arrays.

  Before the region the two state arrays are transposed, so that the batch runs along the trailing axis; the region's
  grid cuts that axis into eight blocks of 32768 columns, and the packed parameters are staged whole at every point.
  Point `t` therefore sees columns `32768 t … 32768 t + 32767` of the transposed states — batch rows of the original
  arrays — and writes the same columns of the three transposed results. Every column belongs to exactly one point's
  block, so after the last point each result array is one function of the arguments: entry `(j, b)` is the network's
  packed output of batch row `b` at the column the result's row `j` stands for.
-/
import proofs.«142301_g2000202583906136_pallasbulk_95_21_alg».proof.Proof.Gen.KernelIdeal.Frame
import proofs.«142301_g2000202583906136_pallasbulk_95_21_alg».proof.Proof.KernelPayload
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The transposes before the region -/

theorem V_v0 (c : Dev nD) : (V m c main_v0 : S8x262144.Idx → EReal)
    = transpose S8x262144 [1, 0] (m ((c : Thread nD τ).loc main_arg0)) transposes_S262144x8_S8x262144_1_0 := by
  show StableHlo.after hostOps0 (fun b => m (c, b)) (Proc.devRef .tc main_v0) = _
  after_results

theorem V_v1 (c : Dev nD) : (V m c main_v1 : S8x262144.Idx → EReal)
    = transpose S8x262144 [1, 0] (m ((c : Thread nD τ).loc main_arg1)) transposes_S262144x8_S8x262144_1_0 := by
  show StableHlo.after hostOps0 (fun b => m (c, b)) (Proc.devRef .tc main_v1) = _
  after_results

/-! ## The index maps, decided over the eight points -/

theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

theorem t_lt (t : Fin cfg0.N) : t.val < 8 := by have := t.isLt; have h : cfg0.N = 8 := N_0; omega

/-! ## Each input window's block at a point -/

/-- The state window at point `t`, entry `(k, q)`: feature `k` of batch row `32768 t + q`. -/
theorem iblk0_apply (c : Dev nD) (t : Fin cfg0.N) (k : Fin 8) (q : Fin 32768) (hb : 32768 * t.val + q.val < 262144) :
    (iblk m c 0 t : Vec Ideal S8x32768 .f32) (ix2 k q)
      = (m ((c : Thread nD τ).loc main_arg0) : S262144x8.Idx → EReal) (ix2 ⟨32768 * t.val + q.val, hb⟩ k) := by
  obtain ⟨e0, e1, -⟩ := idx_facts t
  unfold iblk
  rw [View.read_apply]
  show V m c main_v0 _ = _
  rw [V_v0]
  refine transpose_apply _ _ _ _ (ix2 ⟨32768 * t.val + q.val, hb⟩ k) fun b => ?_
  match b with
  | ⟨0, _⟩ => show k.val = win0_0.index t (0 : Fin 2) * 8 + 1 * k.val; omega
  | ⟨1, _⟩ => show 32768 * t.val + q.val = win0_0.index t (1 : Fin 2) * 32768 + 1 * q.val; omega

/-- The previous-state window likewise. -/
theorem iblk1_apply (c : Dev nD) (t : Fin cfg0.N) (k : Fin 8) (q : Fin 32768) (hb : 32768 * t.val + q.val < 262144) :
    (iblk m c 1 t : Vec Ideal S8x32768 .f32) (ix2 k q)
      = (m ((c : Thread nD τ).loc main_arg1) : S262144x8.Idx → EReal) (ix2 ⟨32768 * t.val + q.val, hb⟩ k) := by
  obtain ⟨-, -, e0, e1, -⟩ := idx_facts t
  unfold iblk
  rw [View.read_apply]
  show V m c main_v1 _ = _
  rw [V_v1]
  refine transpose_apply _ _ _ _ (ix2 ⟨32768 * t.val + q.val, hb⟩ k) fun b => ?_
  match b with
  | ⟨0, _⟩ => show k.val = win0_1.index t (0 : Fin 2) * 8 + 1 * k.val; omega
  | ⟨1, _⟩ => show 32768 * t.val + q.val = win0_1.index t (1 : Fin 2) * 32768 + 1 * q.val; omega

/-- The packed parameters are staged whole: each of their windows' blocks is the array. -/
theorem iblk2_apply (c : Dev nD) (t : Fin cfg0.N) (i : S16x128.Idx) :
    (iblk m c 2 t : Vec Ideal S16x128 .f32) i = (m ((c : Thread nD τ).loc main_arg2) : S16x128.Idx → EReal) i := by
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 16 + 1 * (i 0).val = (i 0).val; omega
  | ⟨1, _⟩ => show win0_2.index t (1 : Fin 2) * 128 + 1 * (i 1).val = (i 1).val; omega

theorem iblk3_apply (c : Dev nD) (t : Fin cfg0.N) (i : S128x96.Idx) :
    (iblk m c 3 t : Vec Ideal S128x96 .f32) i = (m ((c : Thread nD τ).loc main_arg3) : S128x96.Idx → EReal) i := by
  obtain ⟨-, -, -, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 2) * 128 + 1 * (i 0).val = (i 0).val; omega
  | ⟨1, _⟩ => show win0_3.index t (1 : Fin 2) * 96 + 1 * (i 1).val = (i 1).val; omega

theorem iblk4_apply (c : Dev nD) (t : Fin cfg0.N) (i : S96x128.Idx) :
    (iblk m c 4 t : Vec Ideal S96x128 .f32) i = (m ((c : Thread nD τ).loc main_arg4) : S96x128.Idx → EReal) i := by
  obtain ⟨-, -, -, -, -, -, -, -, e0, e1, -⟩ := idx_facts t
  unfold iblk
  rw [View.read_apply]
  show V m c main_arg4 _ = _
  rw [V_main_arg4]
  refine congrArg _ (funext fun a => Fin.ext ?_)
  match a with
  | ⟨0, _⟩ => show win0_4.index t (0 : Fin 2) * 96 + 1 * (i 0).val = (i 0).val; omega
  | ⟨1, _⟩ => show win0_4.index t (1 : Fin 2) * 128 + 1 * (i 1).val = (i 1).val; omega

theorem iblk5_apply (c : Dev nD) (t : Fin cfg0.N) (i : S1x384.Idx) :
    (iblk m c 5 t : Vec Ideal S1x384 .f32) i = (m ((c : Thread nD τ).loc main_arg5) : S1x384.Idx → EReal) i := by
  obtain ⟨-, -, -, -, -, -, -, -, -, -, e0, e1, -⟩ := idx_facts t
  unfold iblk
  rw [View.read_apply]
  show V m c main_arg5 _ = _
  rw [V_main_arg5]
  refine congrArg _ (funext fun a => Fin.ext ?_)
  match a with
  | ⟨0, _⟩ => show win0_5.index t (0 : Fin 2) * 1 + 1 * (i 0).val = (i 0).val; omega
  | ⟨1, _⟩ => show win0_5.index t (1 : Fin 2) * 384 + 1 * (i 1).val = (i 1).val; omega

/-! ## The packed output of a batch row, from the argument arrays -/

/-- The network's packed output, of the argument arrays of core `c`. -/
abbrev net (c : Dev nD) (b : Fin 262144) (j : Fin 128) : EReal :=
  A2C.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b j

/-- The batch row a point's column stands for. -/
def colOf (t : Fin cfg0.N) (q : Fin 32768) : Fin 262144 := ⟨32768 * t.val + q.val, by have := t_lt t; have := q.isLt; omega⟩

/-- The body's packed 9-row payload at point `t`, entry `(j, q)`: the network's output of batch row
    `32768 t + q` at column `j` — the payload lemma fed with what each load reads of the blocks. -/
theorem pay_at (c : Dev nD) (t : Fin cfg0.N) (j : Fin 9) (q : Fin 32768) :
    k0_pay2 (View.ld (iblk m c 0 t) r0_0) (View.ld (iblk m c 1 t) r0_0) (View.ld (iblk m c 2 t) r0_1) (View.ld (iblk m c 5 t) r0_2)
        (View.ld (iblk m c 2 t) r0_3) (View.ld (iblk m c 3 t) r0_4) (View.ld (iblk m c 5 t) r0_5) (View.ld (iblk m c 4 t) r0_6)
        (View.ld (iblk m c 5 t) r0_7) (ix2 j q)
      = net m c (colOf t q) ⟨j.val, by omega⟩ := by
  refine pay2_apply _ _ _ _ _ _ _ _ _ _ _ _ _ _ _ (colOf t) ?_ ?_ ?_ ?_ ?_ ?_ ?_ ?_ ?_ j q
  · intro k q
    rw [View.ld_unit_zero (S := S8x32768) hz]
    exact iblk0_apply m c t k q _
  · intro k q
    rw [View.ld_unit_zero (S := S8x32768) hz]
    exact iblk1_apply m c t k q _
  · intro k j
    show (iblk m c 2 t : Vec Ideal S16x128 .f32) (r0_1.idx (ix2 k j)) = _
    rw [iblk2_apply]
    exact congrArg _ (funext fun a => Fin.ext (by
      match a with
      | ⟨0, _⟩ => show 0 + 1 * k.val = k.val; omega
      | ⟨1, _⟩ => show 0 + 1 * j.val = j.val; omega))
  · intro j
    show (iblk m c 5 t : Vec Ideal S1x384 .f32) (r0_2.idx (ix2 0 j)) = _
    rw [iblk5_apply]
    exact congrArg _ (funext fun a => Fin.ext (by
      match a with
      | ⟨0, _⟩ => show 0 + 1 * 0 = 0; omega
      | ⟨1, _⟩ => show 0 + 1 * j.val = j.val; omega))
  · intro k j
    show (iblk m c 2 t : Vec Ideal S16x128 .f32) (r0_3.idx (ix2 k j)) = _
    rw [iblk2_apply]
    exact congrArg _ (funext fun a => Fin.ext (by
      match a with
      | ⟨0, _⟩ => show 8 + 1 * k.val = 8 + k.val; omega
      | ⟨1, _⟩ => show 0 + 1 * j.val = j.val; omega))
  · intro k j
    rw [View.ld_unit_zero (S := S128x96) hz]
    exact iblk3_apply m c t _
  · intro j
    show (iblk m c 5 t : Vec Ideal S1x384 .f32) (r0_5.idx (ix2 0 j)) = _
    rw [iblk5_apply]
    exact congrArg _ (funext fun a => Fin.ext (by
      match a with
      | ⟨0, _⟩ => show 0 + 1 * 0 = 0; omega
      | ⟨1, _⟩ => show 128 + 1 * j.val = 128 + j.val; omega))
  · intro k j
    show (iblk m c 4 t : Vec Ideal S96x128 .f32) (r0_6.idx (ix2 k j)) = _
    rw [iblk4_apply]
    exact congrArg _ (funext fun a => Fin.ext (by
      match a with
      | ⟨0, _⟩ => show 0 + 1 * k.val = k.val; omega
      | ⟨1, _⟩ => show 0 + 1 * j.val = j.val; omega))
  · intro j
    show (iblk m c 5 t : Vec Ideal S1x384 .f32) (r0_7.idx (ix2 0 j)) = _
    rw [iblk5_apply]
    exact congrArg _ (funext fun a => Fin.ext (by
      match a with
      | ⟨0, _⟩ => show 0 + 1 * 0 = 0; omega
      | ⟨1, _⟩ => show 256 + 1 * j.val = 256 + j.val; omega))

/-! ## Output window 6 -/

/-- The transposed result array of window 6 as one function of the arguments: entry `(j, b)` is the packed output
    of batch row `b` at column `j`. -/
def G6 (c : Dev nD) : S4x262144.Idx → EReal := fun i =>
  net m c (i 1) ⟨(i 0).val, by have := idx2_lt0 i; omega⟩

/-- What point `t` writes back to window 6's array is block `t` of that function. -/
theorem flushed6_eq (c : Dev nD) (t : Fin cfg0.N) :
    (dats m 0 c).flushed 6 t = ((cfg0.win 6).blk t).view.read (Elt Ideal) (G6 m c) := by
  obtain ⟨-, -, -, -, -, -, -, -, -, -, -, -, e0, e1, -⟩ := idx_facts t
  show (cfg0.win 6).cut (grid0.coords t) ((dats m 0 c).after 6 t) = _
  rw [after0_6]
  unfold out0_6
  rw [View.canon_unit_zero hz]
  funext y
  obtain ⟨j, q, rfl⟩ : ∃ (j : Fin 4) (q : Fin 32768), y = ix2 j q := ⟨y 0, y 1, eq_ix2 y⟩
  rw [View.read_apply]
  show k0_pay3 (View.ld (iblk m c 0 t) r0_0) (View.ld (iblk m c 1 t) r0_0) (View.ld (iblk m c 2 t) r0_1) (View.ld (iblk m c 5 t) r0_2) (View.ld (iblk m c 2 t) r0_3) (View.ld (iblk m c 3 t) r0_4) (View.ld (iblk m c 5 t) r0_5) (View.ld (iblk m c 4 t) r0_6) (View.ld (iblk m c 5 t) r0_7) (ix2 j q) = G6 m c (((cfg0.win 6).blk t).view.emb (ix2 j q))
  unfold k0_pay3
  refine (slice2_axis0_apply 0 _ _ j q ⟨j.val, by omega⟩ (by simp)).trans ?_
  rw [pay_at m c t ⟨j.val, by omega⟩ q]
  unfold G6
  refine congrArg₂ (net m c) (Fin.ext ?_) (Fin.ext ?_)
  · show 32768 * t.val + q.val = win0_6.index t (1 : Fin 2) * 32768 + 1 * q.val; omega
  · show j.val = win0_6.index t (0 : Fin 2) * 4 + 1 * j.val; omega

/-- An index of the array is in point `t`'s block iff each coordinate is in the block's range on its axis. -/
theorem mem_blk6 (t : Fin cfg0.N) (i : S4x262144.Idx) :
    i ∈ ((cfg0.win 6).blk t).view.set ↔ ∀ a : Fin 2, win0_6.index t a * S4x32768.size a ≤ (i a).val
      ∧ (i a).val < win0_6.index t a * S4x32768.size a + S4x32768.size a := by
  show i ∈ ((View.whole main_v2_0).slice (win0_6.rect t)).set ↔ _
  rw [View.set_slice_whole, Rect.mem_set_unit]
  exact Iff.rfl

/-- Every column lies in the block of the point `column / 32768`. -/
theorem cover6 (i : S4x262144.Idx) :
    ∃ t : Fin cfg0.N, (cfg0.win 6).flush t = true ∧ i ∈ ((cfg0.win 6).blk t).view.set := by
  have h0 := idx2_lt0 i
  have h1 := idx2_lt1 i
  have hN : cfg0.N = 8 := N_0
  refine ⟨⟨(i 1).val / 32768, by omega⟩, flush0_6 _, ?_⟩
  obtain ⟨-, -, -, -, -, -, -, -, -, -, -, -, e0, e1, -⟩ := idx_facts ⟨(i 1).val / 32768, by omega⟩
  rw [mem_blk6]
  intro a
  match a with
  | ⟨0, _⟩ =>
    show win0_6.index _ (0 : Fin 2) * 4 ≤ (i 0).val ∧ (i 0).val < win0_6.index _ (0 : Fin 2) * 4 + 4
    rw [e0]; omega
  | ⟨1, _⟩ =>
    show win0_6.index _ (1 : Fin 2) * 32768 ≤ (i 1).val ∧ (i 1).val < win0_6.index _ (1 : Fin 2) * 32768 + 32768
    rw [e1]; show (i 1).val / 32768 * 32768 ≤ (i 1).val ∧ (i 1).val < (i 1).val / 32768 * 32768 + 32768; omega

/-- After the last point window 6's array is that function. -/
theorem final6 (c : Dev nD) : (dats m 0 c).arrAt 6 cfg0.N = G6 m c :=
  (dats m 0 c).arrAt_eq_of_cover 6 (G6 m c) (fun t _ => flushed6_eq m c t) cover6

/-! ## Output window 7 -/

/-- The transposed result array of window 7 as one function of the arguments: entry `(j, b)` is the packed output
    of batch row `b` at column `4 + j`. -/
def G7 (c : Dev nD) : S1x262144.Idx → EReal := fun i =>
  net m c (i 1) ⟨4 + (i 0).val, by have := idx2_lt0 i; omega⟩

/-- What point `t` writes back to window 7's array is block `t` of that function. -/
theorem flushed7_eq (c : Dev nD) (t : Fin cfg0.N) :
    (dats m 0 c).flushed 7 t = ((cfg0.win 7).blk t).view.read (Elt Ideal) (G7 m c) := by
  obtain ⟨-, -, -, -, -, -, -, -, -, -, -, -, -, -, e0, e1, -⟩ := idx_facts t
  show (cfg0.win 7).cut (grid0.coords t) ((dats m 0 c).after 7 t) = _
  rw [after0_7]
  unfold out0_7
  rw [View.canon_unit_zero hz]
  funext y
  obtain ⟨j, q, rfl⟩ : ∃ (j : Fin 1) (q : Fin 32768), y = ix2 j q := ⟨y 0, y 1, eq_ix2 y⟩
  rw [View.read_apply]
  show k0_pay4 (View.ld (iblk m c 0 t) r0_0) (View.ld (iblk m c 1 t) r0_0) (View.ld (iblk m c 2 t) r0_1) (View.ld (iblk m c 5 t) r0_2) (View.ld (iblk m c 2 t) r0_3) (View.ld (iblk m c 3 t) r0_4) (View.ld (iblk m c 5 t) r0_5) (View.ld (iblk m c 4 t) r0_6) (View.ld (iblk m c 5 t) r0_7) (ix2 j q) = G7 m c (((cfg0.win 7).blk t).view.emb (ix2 j q))
  unfold k0_pay4
  refine (slice2_axis0_apply 4 _ _ j q ⟨4 + j.val, by omega⟩ rfl).trans ?_
  rw [pay_at m c t ⟨4 + j.val, by omega⟩ q]
  unfold G7
  refine congrArg₂ (net m c) (Fin.ext ?_) (Fin.ext ?_)
  · show 32768 * t.val + q.val = win0_7.index t (1 : Fin 2) * 32768 + 1 * q.val; omega
  · show 4 + j.val = 4 + (win0_7.index t (0 : Fin 2) * 1 + 1 * j.val); omega

/-- An index of the array is in point `t`'s block iff each coordinate is in the block's range on its axis. -/
theorem mem_blk7 (t : Fin cfg0.N) (i : S1x262144.Idx) :
    i ∈ ((cfg0.win 7).blk t).view.set ↔ ∀ a : Fin 2, win0_7.index t a * S1x32768.size a ≤ (i a).val
      ∧ (i a).val < win0_7.index t a * S1x32768.size a + S1x32768.size a := by
  show i ∈ ((View.whole main_v2_1).slice (win0_7.rect t)).set ↔ _
  rw [View.set_slice_whole, Rect.mem_set_unit]
  exact Iff.rfl

/-- Every column lies in the block of the point `column / 32768`. -/
theorem cover7 (i : S1x262144.Idx) :
    ∃ t : Fin cfg0.N, (cfg0.win 7).flush t = true ∧ i ∈ ((cfg0.win 7).blk t).view.set := by
  have h0 := idx2_lt0 i
  have h1 := idx2_lt1 i
  have hN : cfg0.N = 8 := N_0
  refine ⟨⟨(i 1).val / 32768, by omega⟩, flush0_7 _, ?_⟩
  obtain ⟨-, -, -, -, -, -, -, -, -, -, -, -, -, -, e0, e1, -⟩ := idx_facts ⟨(i 1).val / 32768, by omega⟩
  rw [mem_blk7]
  intro a
  match a with
  | ⟨0, _⟩ =>
    show win0_7.index _ (0 : Fin 2) * 1 ≤ (i 0).val ∧ (i 0).val < win0_7.index _ (0 : Fin 2) * 1 + 1
    rw [e0]; omega
  | ⟨1, _⟩ =>
    show win0_7.index _ (1 : Fin 2) * 32768 ≤ (i 1).val ∧ (i 1).val < win0_7.index _ (1 : Fin 2) * 32768 + 32768
    rw [e1]; show (i 1).val / 32768 * 32768 ≤ (i 1).val ∧ (i 1).val < (i 1).val / 32768 * 32768 + 32768; omega

/-- After the last point window 7's array is that function. -/
theorem final7 (c : Dev nD) : (dats m 0 c).arrAt 7 cfg0.N = G7 m c :=
  (dats m 0 c).arrAt_eq_of_cover 7 (G7 m c) (fun t _ => flushed7_eq m c t) cover7

/-! ## Output window 8 -/

/-- The transposed result array of window 8 as one function of the arguments: entry `(j, b)` is the packed output
    of batch row `b` at column `5 + j`. -/
def G8 (c : Dev nD) : S4x262144.Idx → EReal := fun i =>
  net m c (i 1) ⟨5 + (i 0).val, by have := idx2_lt0 i; omega⟩

/-- What point `t` writes back to window 8's array is block `t` of that function. -/
theorem flushed8_eq (c : Dev nD) (t : Fin cfg0.N) :
    (dats m 0 c).flushed 8 t = ((cfg0.win 8).blk t).view.read (Elt Ideal) (G8 m c) := by
  obtain ⟨-, -, -, -, -, -, -, -, -, -, -, -, -, -, -, -, e0, e1⟩ := idx_facts t
  show (cfg0.win 8).cut (grid0.coords t) ((dats m 0 c).after 8 t) = _
  rw [after0_8]
  unfold out0_8
  rw [View.canon_unit_zero hz]
  funext y
  obtain ⟨j, q, rfl⟩ : ∃ (j : Fin 4) (q : Fin 32768), y = ix2 j q := ⟨y 0, y 1, eq_ix2 y⟩
  rw [View.read_apply]
  show k0_pay1 (k0_pay2 (View.ld (iblk m c 0 t) r0_0) (View.ld (iblk m c 1 t) r0_0) (View.ld (iblk m c 2 t) r0_1) (View.ld (iblk m c 5 t) r0_2) (View.ld (iblk m c 2 t) r0_3) (View.ld (iblk m c 3 t) r0_4) (View.ld (iblk m c 5 t) r0_5) (View.ld (iblk m c 4 t) r0_6) (View.ld (iblk m c 5 t) r0_7)) (ix2 j q) = G8 m c (((cfg0.win 8).blk t).view.emb (ix2 j q))
  unfold k0_pay1
  refine (slice2_axis0_apply 5 _ _ j q ⟨5 + j.val, by omega⟩ rfl).trans ?_
  rw [pay_at m c t ⟨5 + j.val, by omega⟩ q]
  unfold G8
  refine congrArg₂ (net m c) (Fin.ext ?_) (Fin.ext ?_)
  · show 32768 * t.val + q.val = win0_8.index t (1 : Fin 2) * 32768 + 1 * q.val; omega
  · show 5 + j.val = 5 + (win0_8.index t (0 : Fin 2) * 4 + 1 * j.val); omega

/-- An index of the array is in point `t`'s block iff each coordinate is in the block's range on its axis. -/
theorem mem_blk8 (t : Fin cfg0.N) (i : S4x262144.Idx) :
    i ∈ ((cfg0.win 8).blk t).view.set ↔ ∀ a : Fin 2, win0_8.index t a * S4x32768.size a ≤ (i a).val
      ∧ (i a).val < win0_8.index t a * S4x32768.size a + S4x32768.size a := by
  show i ∈ ((View.whole main_v2_2).slice (win0_8.rect t)).set ↔ _
  rw [View.set_slice_whole, Rect.mem_set_unit]
  exact Iff.rfl

/-- Every column lies in the block of the point `column / 32768`. -/
theorem cover8 (i : S4x262144.Idx) :
    ∃ t : Fin cfg0.N, (cfg0.win 8).flush t = true ∧ i ∈ ((cfg0.win 8).blk t).view.set := by
  have h0 := idx2_lt0 i
  have h1 := idx2_lt1 i
  have hN : cfg0.N = 8 := N_0
  refine ⟨⟨(i 1).val / 32768, by omega⟩, flush0_8 _, ?_⟩
  obtain ⟨-, -, -, -, -, -, -, -, -, -, -, -, -, -, -, -, e0, e1⟩ := idx_facts ⟨(i 1).val / 32768, by omega⟩
  rw [mem_blk8]
  intro a
  match a with
  | ⟨0, _⟩ =>
    show win0_8.index _ (0 : Fin 2) * 4 ≤ (i 0).val ∧ (i 0).val < win0_8.index _ (0 : Fin 2) * 4 + 4
    rw [e0]; omega
  | ⟨1, _⟩ =>
    show win0_8.index _ (1 : Fin 2) * 32768 ≤ (i 1).val ∧ (i 1).val < win0_8.index _ (1 : Fin 2) * 32768 + 32768
    rw [e1]; show (i 1).val / 32768 * 32768 ≤ (i 1).val ∧ (i 1).val < (i 1).val / 32768 * 32768 + 32768; omega

/-- After the last point window 8's array is that function. -/
theorem final8 (c : Dev nD) : (dats m 0 c).arrAt 8 cfg0.N = G8 m c :=
  (dats m 0 c).arrAt_eq_of_cover 8 (G8 m c) (fun t _ => flushed8_eq m c t) cover8

end Cert.KernelIdeal.Hand

end
-- ==== Proof.KernelRun.lean ====
/-
  The kernel program's run, read: after the region each transposed result array is transposed back, so the three
  result buffers hold the network's policy, critic and inverse-model columns of every batch row, and the six
  argument arrays are as they were.
-/
import proofs.«142301_g2000202583906136_pallasbulk_95_21_alg».proof.Proof.KernelBlocks

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The policy columns of the argument arrays of core `c`. -/
abbrev policyOf (c : Dev nD) : S262144x4.Idx → EReal :=
  A2C.policy (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev criticOf (c : Dev nD) : S262144x1.Idx → EReal :=
  A2C.critic (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev inverseOf (c : Dev nD) : S262144x4.Idx → EReal :=
  A2C.inverse (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The first result: window 6's array transposed back. -/
theorem tail_v3 (c : Dev nD) :
    Pipeline.afterTail₀ cfgs (dats m) 0 (V0 m) [hostOps1] c main_v3 = policyOf m c := by
  unfold Pipeline.afterTail₀
  show StableHlo.after hostOps1 _ (Proc.devRef .tc main_v3) = _
  after_results
  funext i
  obtain ⟨b, j, rfl⟩ : ∃ (b : Fin 262144) (j : Fin 4), i = ix2 b j := ⟨i 0, i 1, eq_ix2 i⟩
  refine (transpose_ix2_apply _ _ b j).trans ?_
  exact (congrFun ((Pipeline.withArrays_arr spec0 launch0.win.arr_inj c _ _ 6).trans (final6 m c)) (ix2 j b)).trans rfl

/-- The second result: window 7's array transposed back. -/
theorem tail_v4 (c : Dev nD) :
    Pipeline.afterTail₀ cfgs (dats m) 0 (V0 m) [hostOps1] c main_v4 = criticOf m c := by
  unfold Pipeline.afterTail₀
  show StableHlo.after hostOps1 _ (Proc.devRef .tc main_v4) = _
  after_results
  funext i
  obtain ⟨b, j, rfl⟩ : ∃ (b : Fin 262144) (j : Fin 1), i = ix2 b j := ⟨i 0, i 1, eq_ix2 i⟩
  refine (transpose_ix2_apply _ _ b j).trans ?_
  exact (congrFun ((Pipeline.withArrays_arr spec0 launch0.win.arr_inj c _ _ 7).trans (final7 m c)) (ix2 j b)).trans rfl

/-- The third result: window 8's array transposed back. -/
theorem tail_v5 (c : Dev nD) :
    Pipeline.afterTail₀ cfgs (dats m) 0 (V0 m) [hostOps1] c main_v5 = inverseOf m c := by
  unfold Pipeline.afterTail₀
  show StableHlo.after hostOps1 _ (Proc.devRef .tc main_v5) = _
  after_results
  funext i
  obtain ⟨b, j, rfl⟩ : ∃ (b : Fin 262144) (j : Fin 4), i = ix2 b j := ⟨i 0, i 1, eq_ix2 i⟩
  refine (transpose_ix2_apply _ _ b j).trans ?_
  exact (congrFun ((Pipeline.withArrays_arr spec0 launch0.win.arr_inj c _ _ 8).trans (final8 m c)) (ix2 j b)).trans rfl

/-- THE RUN, READ: every weakly fair execution ends with the three results at the network's three heads of the
    argument arrays, and the arguments unchanged. -/
theorem run : θ_run defs (onTc (τ := τ) (main (F := Ideal))) ⟨m, fun _ => 0, ρ⟩ fun r => ∀ c : Dev nD,
      r.2.mem ((c : Thread nD τ).loc main_v3) = policyOf m c
      ∧ r.2.mem ((c : Thread nD τ).loc main_v4) = criticOf m c
      ∧ r.2.mem ((c : Thread nD τ).loc main_v5) = inverseOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v3 (Pipeline.mem_restRefs_of main_v3 (by decide) (by decide))).trans (tail_v3 m c),
     ((h c).2 main_v4 (Pipeline.mem_restRefs_of main_v4 (by decide) (by decide))).trans (tail_v4 m c),
     ((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c))),
     ((h c).1 5).trans (((dats m 0 c).arrAt_in 5 rfl _).trans ((A_eq m c 5).trans (V_main_arg5 m c)))⟩)
    (run_main m ρ)

end Cert.KernelIdeal.Hand

end
-- ==== Proof.RefMatmul.lean ====
/-
  The reference kernel's three matrix products read at an entry. Each is a plain rows-by-columns product:
  entry `(j, q)` is the sum over `k` of `L (j, k) · R (k, q)`; into a zero accumulator that finite sum is the whole
  value at the extended reals.
-/
import proofs.«142301_g2000202583906136_pallasbulk_95_21_alg».proof.Proof.Gen.ReferenceIdeal
import Idealize.ShloMosaic.Lib.ValueIdx
import Idealize.ShloMosaic.PureOps.Ideal.Laws

noncomputable section

namespace Cert.ReferenceIdeal.Hand

open Idealize.ShloMosaic Idealize.ShloMosaic.ValueIdx Cert.ReferenceIdeal Cert.ReferenceIdeal.Gen

namespace Trunk

theorem lhs_1 (i : S512x128.Idx) (q : dot_S512x16_S16x128_S512x128_1_0_0_1_n_n.contr.Idx) :
    (dot_S512x16_S16x128_S512x128_1_0_0_1_n_n.lhsIdx i q 1).val = (q ⟨0, by decide⟩).val := dot_S512x16_S16x128_S512x128_1_0_0_1_n_n.lhsIdx_val_of_single rfl i q
theorem lhs_0 (i : S512x128.Idx) (q : dot_S512x16_S16x128_S512x128_1_0_0_1_n_n.contr.Idx) :
    (dot_S512x16_S16x128_S512x128_1_0_0_1_n_n.lhsIdx i q 0).val = (i 0).val := by
  unfold DotDims.lhsIdx
  rw [dif_neg (show ¬(0 : Fin S512x16.rank) ∈ dot_S512x16_S16x128_S512x128_1_0_0_1_n_n.lhsBatch by decide), dif_pos (show (0 : Fin S512x16.rank) ∈ dot_S512x16_S16x128_S512x128_1_0_0_1_n_n.lhsNonContracting by decide)]
  rfl
theorem rhs_0 (i : S512x128.Idx) (q : dot_S512x16_S16x128_S512x128_1_0_0_1_n_n.contr.Idx) :
    (dot_S512x16_S16x128_S512x128_1_0_0_1_n_n.rhsIdx i q 0).val = (q ⟨0, by decide⟩).val := dot_S512x16_S16x128_S512x128_1_0_0_1_n_n.rhsIdx_val_of_single rfl i q
theorem rhs_1 (i : S512x128.Idx) (q : dot_S512x16_S16x128_S512x128_1_0_0_1_n_n.contr.Idx) :
    (dot_S512x16_S16x128_S512x128_1_0_0_1_n_n.rhsIdx i q 1).val = (i 1).val := by
  unfold DotDims.rhsIdx
  rw [dif_neg (show ¬(1 : Fin S16x128.rank) ∈ dot_S512x16_S16x128_S512x128_1_0_0_1_n_n.rhsBatch by decide), dif_pos (show (1 : Fin S16x128.rank) ∈ dot_S512x16_S16x128_S512x128_1_0_0_1_n_n.rhsNonContracting by decide)]
  rfl

/-- The product into a zero accumulator, entry `(j, q)`: the sum over the 16 contracted positions of the two
    operands' entries there. -/
theorem apply (prec : Option ContractPrecision) (L : FVec Ideal S512x16 .f32) (R : FVec Ideal S16x128 .f32) (j : Fin 512) (q : Fin 128) :
    matmul dot_S512x16_S16x128_S512x128_1_0_0_1_n_n prec L R (constant (F := Ideal) S512x128 .f32 0x00000000#32) (ix2 j q)
      = ∑ k : Fin 16, L (ix2 j k) * R (ix2 k q) := by
  simp only [matmul]
  rw [Ideal.matmul_constant_zero_apply, ← Equiv.sum_comp (ValueIdx.contrEquiv1 dot_S512x16_S16x128_S512x128_1_0_0_1_n_n 16 rfl rfl).symm]
  refine Finset.sum_congr rfl fun k _ => ?_
  have hk := ValueIdx.contrEquiv1_symm_val dot_S512x16_S16x128_S512x128_1_0_0_1_n_n 16 rfl rfl k
  have el : dot_S512x16_S16x128_S512x128_1_0_0_1_n_n.lhsIdx (ix2 j q) ((ValueIdx.contrEquiv1 dot_S512x16_S16x128_S512x128_1_0_0_1_n_n 16 rfl rfl).symm k) = ix2 j k := funext fun a => Fin.ext (by
    match a with
    | ⟨0, _⟩ => exact lhs_0 _ _
    | ⟨1, _⟩ => exact (lhs_1 _ _).trans hk)
  have er : dot_S512x16_S16x128_S512x128_1_0_0_1_n_n.rhsIdx (ix2 j q) ((ValueIdx.contrEquiv1 dot_S512x16_S16x128_S512x128_1_0_0_1_n_n 16 rfl rfl).symm k) = ix2 k q := funext fun a => Fin.ext (by
    match a with
    | ⟨0, _⟩ => exact (rhs_0 _ _).trans hk
    | ⟨1, _⟩ => exact rhs_1 _ _)
  rw [el, er]

end Trunk

namespace Hidden

theorem lhs_1 (i : S512x96.Idx) (q : dot_S512x128_S128x96_S512x96_1_0_0_1_n_n.contr.Idx) :
    (dot_S512x128_S128x96_S512x96_1_0_0_1_n_n.lhsIdx i q 1).val = (q ⟨0, by decide⟩).val := dot_S512x128_S128x96_S512x96_1_0_0_1_n_n.lhsIdx_val_of_single rfl i q
theorem lhs_0 (i : S512x96.Idx) (q : dot_S512x128_S128x96_S512x96_1_0_0_1_n_n.contr.Idx) :
    (dot_S512x128_S128x96_S512x96_1_0_0_1_n_n.lhsIdx i q 0).val = (i 0).val := by
  unfold DotDims.lhsIdx
  rw [dif_neg (show ¬(0 : Fin S512x128.rank) ∈ dot_S512x128_S128x96_S512x96_1_0_0_1_n_n.lhsBatch by decide), dif_pos (show (0 : Fin S512x128.rank) ∈ dot_S512x128_S128x96_S512x96_1_0_0_1_n_n.lhsNonContracting by decide)]
  rfl
theorem rhs_0 (i : S512x96.Idx) (q : dot_S512x128_S128x96_S512x96_1_0_0_1_n_n.contr.Idx) :
    (dot_S512x128_S128x96_S512x96_1_0_0_1_n_n.rhsIdx i q 0).val = (q ⟨0, by decide⟩).val := dot_S512x128_S128x96_S512x96_1_0_0_1_n_n.rhsIdx_val_of_single rfl i q
theorem rhs_1 (i : S512x96.Idx) (q : dot_S512x128_S128x96_S512x96_1_0_0_1_n_n.contr.Idx) :
    (dot_S512x128_S128x96_S512x96_1_0_0_1_n_n.rhsIdx i q 1).val = (i 1).val := by
  unfold DotDims.rhsIdx
  rw [dif_neg (show ¬(1 : Fin S128x96.rank) ∈ dot_S512x128_S128x96_S512x96_1_0_0_1_n_n.rhsBatch by decide), dif_pos (show (1 : Fin S128x96.rank) ∈ dot_S512x128_S128x96_S512x96_1_0_0_1_n_n.rhsNonContracting by decide)]
  rfl

/-- The product into a zero accumulator, entry `(j, q)`: the sum over the 128 contracted positions of the two
    operands' entries there. -/
theorem apply (prec : Option ContractPrecision) (L : FVec Ideal S512x128 .f32) (R : FVec Ideal S128x96 .f32) (j : Fin 512) (q : Fin 96) :
    matmul dot_S512x128_S128x96_S512x96_1_0_0_1_n_n prec L R (constant (F := Ideal) S512x96 .f32 0x00000000#32) (ix2 j q)
      = ∑ k : Fin 128, L (ix2 j k) * R (ix2 k q) := by
  simp only [matmul]
  rw [Ideal.matmul_constant_zero_apply, ← Equiv.sum_comp (ValueIdx.contrEquiv1 dot_S512x128_S128x96_S512x96_1_0_0_1_n_n 128 rfl rfl).symm]
  refine Finset.sum_congr rfl fun k _ => ?_
  have hk := ValueIdx.contrEquiv1_symm_val dot_S512x128_S128x96_S512x96_1_0_0_1_n_n 128 rfl rfl k
  have el : dot_S512x128_S128x96_S512x96_1_0_0_1_n_n.lhsIdx (ix2 j q) ((ValueIdx.contrEquiv1 dot_S512x128_S128x96_S512x96_1_0_0_1_n_n 128 rfl rfl).symm k) = ix2 j k := funext fun a => Fin.ext (by
    match a with
    | ⟨0, _⟩ => exact lhs_0 _ _
    | ⟨1, _⟩ => exact (lhs_1 _ _).trans hk)
  have er : dot_S512x128_S128x96_S512x96_1_0_0_1_n_n.rhsIdx (ix2 j q) ((ValueIdx.contrEquiv1 dot_S512x128_S128x96_S512x96_1_0_0_1_n_n 128 rfl rfl).symm k) = ix2 k q := funext fun a => Fin.ext (by
    match a with
    | ⟨0, _⟩ => exact (rhs_0 _ _).trans hk
    | ⟨1, _⟩ => exact rhs_1 _ _)
  rw [el, er]

end Hidden

namespace Out

theorem lhs_1 (i : S512x128.Idx) (q : dot_S512x96_S96x128_S512x128_1_0_0_1_n_n.contr.Idx) :
    (dot_S512x96_S96x128_S512x128_1_0_0_1_n_n.lhsIdx i q 1).val = (q ⟨0, by decide⟩).val := dot_S512x96_S96x128_S512x128_1_0_0_1_n_n.lhsIdx_val_of_single rfl i q
theorem lhs_0 (i : S512x128.Idx) (q : dot_S512x96_S96x128_S512x128_1_0_0_1_n_n.contr.Idx) :
    (dot_S512x96_S96x128_S512x128_1_0_0_1_n_n.lhsIdx i q 0).val = (i 0).val := by
  unfold DotDims.lhsIdx
  rw [dif_neg (show ¬(0 : Fin S512x96.rank) ∈ dot_S512x96_S96x128_S512x128_1_0_0_1_n_n.lhsBatch by decide), dif_pos (show (0 : Fin S512x96.rank) ∈ dot_S512x96_S96x128_S512x128_1_0_0_1_n_n.lhsNonContracting by decide)]
  rfl
theorem rhs_0 (i : S512x128.Idx) (q : dot_S512x96_S96x128_S512x128_1_0_0_1_n_n.contr.Idx) :
    (dot_S512x96_S96x128_S512x128_1_0_0_1_n_n.rhsIdx i q 0).val = (q ⟨0, by decide⟩).val := dot_S512x96_S96x128_S512x128_1_0_0_1_n_n.rhsIdx_val_of_single rfl i q
theorem rhs_1 (i : S512x128.Idx) (q : dot_S512x96_S96x128_S512x128_1_0_0_1_n_n.contr.Idx) :
    (dot_S512x96_S96x128_S512x128_1_0_0_1_n_n.rhsIdx i q 1).val = (i 1).val := by
  unfold DotDims.rhsIdx
  rw [dif_neg (show ¬(1 : Fin S96x128.rank) ∈ dot_S512x96_S96x128_S512x128_1_0_0_1_n_n.rhsBatch by decide), dif_pos (show (1 : Fin S96x128.rank) ∈ dot_S512x96_S96x128_S512x128_1_0_0_1_n_n.rhsNonContracting by decide)]
  rfl

/-- The product into a zero accumulator, entry `(j, q)`: the sum over the 96 contracted positions of the two
    operands' entries there. -/
theorem apply (prec : Option ContractPrecision) (L : FVec Ideal S512x96 .f32) (R : FVec Ideal S96x128 .f32) (j : Fin 512) (q : Fin 128) :
    matmul dot_S512x96_S96x128_S512x128_1_0_0_1_n_n prec L R (constant (F := Ideal) S512x128 .f32 0x00000000#32) (ix2 j q)
      = ∑ k : Fin 96, L (ix2 j k) * R (ix2 k q) := by
  simp only [matmul]
  rw [Ideal.matmul_constant_zero_apply, ← Equiv.sum_comp (ValueIdx.contrEquiv1 dot_S512x96_S96x128_S512x128_1_0_0_1_n_n 96 rfl rfl).symm]
  refine Finset.sum_congr rfl fun k _ => ?_
  have hk := ValueIdx.contrEquiv1_symm_val dot_S512x96_S96x128_S512x128_1_0_0_1_n_n 96 rfl rfl k
  have el : dot_S512x96_S96x128_S512x128_1_0_0_1_n_n.lhsIdx (ix2 j q) ((ValueIdx.contrEquiv1 dot_S512x96_S96x128_S512x128_1_0_0_1_n_n 96 rfl rfl).symm k) = ix2 j k := funext fun a => Fin.ext (by
    match a with
    | ⟨0, _⟩ => exact lhs_0 _ _
    | ⟨1, _⟩ => exact (lhs_1 _ _).trans hk)
  have er : dot_S512x96_S96x128_S512x128_1_0_0_1_n_n.rhsIdx (ix2 j q) ((ValueIdx.contrEquiv1 dot_S512x96_S96x128_S512x128_1_0_0_1_n_n 96 rfl rfl).symm k) = ix2 k q := funext fun a => Fin.ext (by
    match a with
    | ⟨0, _⟩ => exact (rhs_0 _ _).trans hk
    | ⟨1, _⟩ => exact rhs_1 _ _)
  rw [el, er]

end Out

end Cert.ReferenceIdeal.Hand

end
-- ==== Proof.RefPayload.lean ====
/-
  The reference kernel body's arithmetic at one entry.

  The body multiplies its block of stacked state rows by the feature weight, adds the first bias slot and clips
  below at zero; multiplies by the first head weight, adds the second bias slot and clips; multiplies by the second
  head weight and adds the third bias slot. The bias arrives already repeated over the 512 rows of a block, so every
  row of a loaded bias slot is the packed bias's one row. Entry `(r, j)` depends on row `r` of the state block only:
  given that the state block's row `r` is the stacked state row `row r`, it is the specification's packed output
  `out (row r) j`.
-/
import proofs.«142301_g2000202583906136_pallasbulk_95_21_alg».proof.Proof.Gen.ReferenceIdeal.Skeleton
import proofs.«142301_g2000202583906136_pallasbulk_95_21_alg».proof.Proof.RefMatmul
import proofs.«142301_g2000202583906136_pallasbulk_95_21_alg».proof.Proof.Spec
import Idealize.ShloMosaic.Lib.Pipeline.Value

noncomputable section

namespace Cert.ReferenceIdeal.Hand

open Idealize.ShloMosaic Idealize.ShloMosaic.ValueIdx Cert.ReferenceIdeal Cert.ReferenceIdeal.Gen

variable (v0 : Vec Ideal S512x16 .f32) (v2 : Vec Ideal S16x128 .f32) (v4 : Vec Ideal S512x128 .f32) (v9 : Vec Ideal S128x96 .f32)
  (v11 : Vec Ideal S512x96 .f32) (v16 : Vec Ideal S96x128 .f32) (v18 : Vec Ideal S512x128 .f32)

/-! ## The body's intermediate values, named -/

def trunkV : FVec Ideal S512x128 .f32 :=
  maximumf (addf (matmul (φ₁ := .f32) (φ₂ := .f32) dot_S512x16_S16x128_S512x128_1_0_0_1_n_n none (shapeCast S512x16 v0 shapeCasts_S512x16_S512x16) v2
      (constant S512x128 .f32 0x00000000#32)) (shapeCast S512x128 v4 shapeCasts_S512x128_S512x128))
    (broadcast S512x128 (Scalar.ofBits .f32 0x00000000#32))

def hiddenV : FVec Ideal S512x96 .f32 :=
  maximumf (addf (matmul (φ₁ := .f32) (φ₂ := .f32) dot_S512x128_S128x96_S512x96_1_0_0_1_n_n none (trunkV v0 v2 v4) v9
      (constant S512x96 .f32 0x00000000#32)) (shapeCast S512x96 v11 shapeCasts_S512x96_S512x96))
    (broadcast S512x96 (Scalar.ofBits .f32 0x00000000#32))

def outV : FVec Ideal S512x128 .f32 :=
  addf (matmul (φ₁ := .f32) (φ₂ := .f32) dot_S512x96_S96x128_S512x128_1_0_0_1_n_n none (hiddenV v0 v2 v4 v9 v11) v16
    (constant S512x128 .f32 0x00000000#32)) (shapeCast S512x128 v18 shapeCasts_S512x128_S512x128)

/-- The stored payload is that chain. -/
theorem pay1_eq : k0_pay1 v0 v2 v4 v9 v11 v16 v18 = outV v0 v2 v4 v9 v11 v16 v18 := rfl

/-! ## Read at an entry, against the specification -/

variable (st sp : (⟨2, ![262144, 8]⟩ : Shape).Idx → EReal) (wfb : (⟨2, ![16, 128]⟩ : Shape).Idx → EReal)
  (w1 : (⟨2, ![128, 96]⟩ : Shape).Idx → EReal) (w2 : (⟨2, ![96, 128]⟩ : Shape).Idx → EReal)
  (bias : (⟨2, ![1, 384]⟩ : Shape).Idx → EReal) (row : Fin 512 → Fin 262144)

theorem zero_apply : (Scalar.ofBits .f32 0x00000000#32 : Ideal .f32) = 0 := Ideal.ofBits_zero_f32

section Layers
variable (hx : ∀ (r : Fin 512) (k : Fin 16), v0 (ix2 r k) = A2C.xx st sp (row r) k)
  (h2 : ∀ (k : Fin 16) (j : Fin 128), v2 (ix2 k j) = wfb (ix2 k j))
  (h4 : ∀ (r : Fin 512) (j : Fin 128), v4 (ix2 r j) = bias (ix2 0 ⟨j.val, by omega⟩))
  (h9 : ∀ (k : Fin 128) (j : Fin 96), v9 (ix2 k j) = w1 (ix2 k j))
  (h11 : ∀ (r : Fin 512) (j : Fin 96), v11 (ix2 r j) = bias (ix2 0 ⟨128 + j.val, by omega⟩))
  (h16 : ∀ (k : Fin 96) (j : Fin 128), v16 (ix2 k j) = w2 (ix2 k j))
  (h18 : ∀ (r : Fin 512) (j : Fin 128), v18 (ix2 r j) = bias (ix2 0 ⟨256 + j.val, by omega⟩))

include hx h2 h4 in
/-- The feature layer. -/
theorem trunkV_apply (r : Fin 512) (j : Fin 128) :
    trunkV v0 v2 v4 (ix2 r j) = A2C.trunk st sp wfb bias (row r) j := by
  unfold trunkV A2C.trunk
  rw [maximumf_apply, addf_apply, Trunk.apply, broadcast_apply, zero_apply, shapeCast_self, shapeCast_self, h4]
  refine congrArg (fun x => max (x + _) 0) (Finset.sum_congr rfl fun k _ => ?_)
  rw [hx, h2]

include hx h2 h4 h9 h11 in
/-- The hidden layers. -/
theorem hiddenV_apply (r : Fin 512) (j : Fin 96) :
    hiddenV v0 v2 v4 v9 v11 (ix2 r j) = A2C.hidden st sp wfb w1 bias (row r) j := by
  unfold hiddenV A2C.hidden
  rw [maximumf_apply, addf_apply, Hidden.apply, broadcast_apply, zero_apply, shapeCast_self, h11]
  refine congrArg (fun x => max (x + _) 0) (Finset.sum_congr rfl fun k _ => ?_)
  rw [trunkV_apply v0 v2 v4 st sp wfb bias row hx h2 h4, h9]

include hx h2 h4 h9 h11 h16 h18 in
/-- The stored payload at `(r, j)`: the packed output of batch row `row r`, column `j`. -/
theorem pay1_apply (r : Fin 512) (j : Fin 128) :
    k0_pay1 v0 v2 v4 v9 v11 v16 v18 (ix2 r j) = A2C.out st sp wfb w1 w2 bias (row r) j := by
  rw [pay1_eq]
  unfold outV A2C.out
  rw [addf_apply, Out.apply, shapeCast_self, h18]
  refine congrArg (fun x => x + _) (Finset.sum_congr rfl fun k _ => ?_)
  rw [hiddenV_apply v0 v2 v4 v9 v11 st sp wfb w1 bias row hx h2 h4 h9 h11, h16]

end Layers

end Cert.ReferenceIdeal.Hand

end
-- ==== Proof.RefBlocks.lean ====
/-
  From the reference kernel's blocks to its packed result array.

  Before the region the two state arrays are laid side by side along the columns and the packed bias's one row is
  repeated over 512 rows. The region's grid cuts the batch axis into 512 blocks of 512 rows; the weights and the
  repeated bias are staged whole at every point. Point `t` sees rows `512 t … 512 t + 511` of the stacked states
  and writes the same rows of the packed result. Every row belongs to exactly one point's block, so after the last
  point the packed result array is one function of the arguments: entry `(b, j)` is the network's packed output of
  batch row `b` at column `j`.
-/
import proofs.«142301_g2000202583906136_pallasbulk_95_21_alg».proof.Proof.Gen.ReferenceIdeal.Frame
import proofs.«142301_g2000202583906136_pallasbulk_95_21_alg».proof.Proof.RefPayload
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The two host operations before the region -/

theorem V_v0 (c : Dev nD) : (V m c main_v0 : S262144x16.Idx → EReal)
    = concatenate S262144x16 1 [⟨S262144x8, m ((c : Thread nD τ).loc main_arg0)⟩, ⟨S262144x8, m ((c : Thread nD τ).loc main_arg1)⟩]
        concatenates_S262144x8_S262144x8_S262144x16_d1 := by
  show StableHlo.after hostOps0 (fun b => m (c, b)) (Proc.devRef .tc main_v0) = _
  after_results

theorem V_v1 (c : Dev nD) : (V m c main_v1 : S512x384.Idx → EReal)
    = broadcastInDim S512x384 ![0, 1] bcast_S1x384_S512x384_0_1 (m ((c : Thread nD τ).loc main_arg5)) := by
  show StableHlo.after hostOps0 (fun b => m (c, b)) (Proc.devRef .tc main_v1) = _
  after_results

/-! ## The index maps, decided over the 512 points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 512 := by have := t.isLt; have h : cfg0.N = 512 := N_0; omega

/-! ## Each input window's block at a point -/

/-- Two arrays laid side by side along the columns, read at `(b, k)`: the specification's stacked row `b` at `k`. -/
theorem sideBySide_apply (a0 a1 : S262144x8.Idx → EReal) (h : Shape.Concatenates [S262144x8, S262144x8] S262144x16 1)
    (b : Fin 262144) (k : Fin 16) :
    concatenate S262144x16 1 [⟨S262144x8, a0⟩, ⟨S262144x8, a1⟩] h (ix2 b k) = A2C.xx a0 a1 b k := by
  unfold A2C.xx
  by_cases hk : k.val < 8
  · rw [dif_pos hk]
    exact concatenate_pair_apply_left (t := S262144x16) (s₁ := S262144x8) (s₂ := S262144x8) 1 a0 a1 h (ix2 b k) rfl
      (ix2 b ⟨k.val, hk⟩) fun d => by
        match d with
        | ⟨0, _⟩ => rfl
        | ⟨1, _⟩ => rfl
  · rw [dif_neg hk]
    exact concatenate_pair_apply_right (t := S262144x16) (s₁ := S262144x8) (s₂ := S262144x8) 1 a0 a1 h (ix2 b k) rfl rfl
      (ix2 b ⟨k.val - 8, by omega⟩) (fun d hd => by
        match d with
        | ⟨0, _⟩ => rfl
        | ⟨1, _⟩ => exact absurd rfl hd) (by show k.val - 8 + 8 = k.val; omega)

/-- The stacked-state window at point `t`, entry `(r, k)`: feature `k` of the stacked state row `512 t + r`. -/
theorem iblk0_apply (c : Dev nD) (t : Fin cfg0.N) (r : Fin 512) (k : Fin 16) (hb : 512 * t.val + r.val < 262144) :
    (iblk m c 0 t : Vec Ideal S512x16 .f32) (ix2 r k)
      = A2C.xx (m ((c : Thread nD τ).loc main_arg0)) (m ((c : Thread nD τ).loc main_arg1)) ⟨512 * t.val + r.val, hb⟩ k := by
  obtain ⟨e0, e1, -⟩ := idx_facts t
  unfold iblk
  rw [View.read_apply]
  show V m c main_v0 _ = _
  rw [V_v0]
  have e : (((cfg0.win 0).blk t).view.emb (ix2 r k) : S262144x16.Idx) = ix2 ⟨512 * t.val + r.val, hb⟩ k :=
    funext fun a => Fin.ext (by
      match a with
      | ⟨0, _⟩ => show win0_0.index t (0 : Fin 2) * 512 + 1 * r.val = 512 * t.val + r.val; omega
      | ⟨1, _⟩ => show win0_0.index t (1 : Fin 2) * 16 + 1 * k.val = k.val; omega)
  exact (congrArg (concatenate S262144x16 1 [⟨S262144x8, m ((c : Thread nD τ).loc main_arg0)⟩, ⟨S262144x8, m ((c : Thread nD τ).loc main_arg1)⟩]
      concatenates_S262144x8_S262144x8_S262144x16_d1) e).trans (sideBySide_apply _ _ _ _ k)

/-- The weights are staged whole. -/
theorem iblk1_apply (c : Dev nD) (t : Fin cfg0.N) (i : S16x128.Idx) :
    (iblk m c 1 t : Vec Ideal S16x128 .f32) i = (m ((c : Thread nD τ).loc main_arg2) : S16x128.Idx → EReal) i := by
  obtain ⟨-, -, e0, e1, -⟩ := idx_facts t
  unfold iblk
  rw [View.read_apply]
  show V m c main_arg2 _ = _
  rw [V_main_arg2]
  refine congrArg _ (funext fun a => Fin.ext ?_)
  match a with
  | ⟨0, _⟩ => show win0_1.index t (0 : Fin 2) * 16 + 1 * (i 0).val = (i 0).val; omega
  | ⟨1, _⟩ => show win0_1.index t (1 : Fin 2) * 128 + 1 * (i 1).val = (i 1).val; omega

theorem iblk2_apply (c : Dev nD) (t : Fin cfg0.N) (i : S128x96.Idx) :
    (iblk m c 2 t : Vec Ideal S128x96 .f32) i = (m ((c : Thread nD τ).loc main_arg3) : S128x96.Idx → EReal) i := by
  obtain ⟨-, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_2.index t (0 : Fin 2) * 128 + 1 * (i 0).val = (i 0).val; omega
  | ⟨1, _⟩ => show win0_2.index t (1 : Fin 2) * 96 + 1 * (i 1).val = (i 1).val; omega

theorem iblk3_apply (c : Dev nD) (t : Fin cfg0.N) (i : S96x128.Idx) :
    (iblk m c 3 t : Vec Ideal S96x128 .f32) i = (m ((c : Thread nD τ).loc main_arg4) : S96x128.Idx → EReal) i := by
  obtain ⟨-, -, -, -, -, -, e0, e1, -⟩ := idx_facts t
  unfold iblk
  rw [View.read_apply]
  show V m c main_arg4 _ = _
  rw [V_main_arg4]
  refine congrArg _ (funext fun a => Fin.ext ?_)
  match a with
  | ⟨0, _⟩ => show win0_3.index t (0 : Fin 2) * 96 + 1 * (i 0).val = (i 0).val; omega
  | ⟨1, _⟩ => show win0_3.index t (1 : Fin 2) * 128 + 1 * (i 1).val = (i 1).val; omega

/-- The repeated bias is staged whole, and each of its rows is the packed bias's one row. -/
theorem iblk4_apply (c : Dev nD) (t : Fin cfg0.N) (r : Fin 512) (j : Fin 384) :
    (iblk m c 4 t : Vec Ideal S512x384 .f32) (ix2 r j) = (m ((c : Thread nD τ).loc main_arg5) : S1x384.Idx → EReal) (ix2 0 j) := by
  obtain ⟨-, -, -, -, -, -, -, -, e0, e1, -⟩ := idx_facts t
  unfold iblk
  rw [View.read_apply]
  show V m c main_v1 _ = _
  rw [V_v1]
  refine broadcastInDim_apply _ _ _ _ (ix2 0 j) fun a => ?_
  match a with
  | ⟨0, _⟩ => rfl
  | ⟨1, _⟩ =>
    show j.val = if (384 : Nat) = 1 then 0 else win0_4.index t (1 : Fin 2) * 384 + 1 * j.val
    rw [if_neg (by decide)]; omega

/-! ## The packed output of a batch row, from the argument arrays -/

/-- The network's packed output, of the argument arrays of core `c`. -/
abbrev net (c : Dev nD) (b : Fin 262144) (j : Fin 128) : EReal :=
  A2C.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b j

/-- The batch row a point's block row stands for. -/
def rowOf (t : Fin cfg0.N) (r : Fin 512) : Fin 262144 := ⟨512 * t.val + r.val, by have := t_lt t; have := r.isLt; omega⟩

/-- The body's stored payload at point `t`, entry `(r, j)`: the network's packed output of batch row `512 t + r`
    at column `j` — the payload lemma fed with what each load reads of the blocks. -/
theorem pay_at (c : Dev nD) (t : Fin cfg0.N) (r : Fin 512) (j : Fin 128) :
    k0_pay1 (View.ld (iblk m c 0 t) r0_0) (View.ld (iblk m c 1 t) r0_1) (View.ld (iblk m c 4 t) r0_2) (View.ld (iblk m c 2 t) r0_3)
        (View.ld (iblk m c 4 t) r0_4) (View.ld (iblk m c 3 t) r0_5) (View.ld (iblk m c 4 t) r0_6) (ix2 r j)
      = net m c (rowOf t r) j := by
  refine pay1_apply _ _ _ _ _ _ _ _ _ _ _ _ _ (rowOf t) ?_ ?_ ?_ ?_ ?_ ?_ ?_ r j
  · intro r k
    rw [View.ld_unit_zero (S := S512x16) hz]
    exact iblk0_apply m c t r k _
  · intro k j
    rw [View.ld_unit_zero (S := S16x128) hz]
    exact iblk1_apply m c t _
  · intro r j
    show (iblk m c 4 t : Vec Ideal S512x384 .f32) (r0_2.idx (ix2 r j)) = _
    have e : r0_2.idx (ix2 r j) = ix2 r ⟨j.val, by omega⟩ := funext fun a => Fin.ext (by
      match a with
      | ⟨0, _⟩ => show 0 + 1 * r.val = r.val; omega
      | ⟨1, _⟩ => show 0 + 1 * j.val = j.val; omega)
    rw [e, iblk4_apply]
  · intro k j
    rw [View.ld_unit_zero (S := S128x96) hz]
    exact iblk2_apply m c t _
  · intro r j
    show (iblk m c 4 t : Vec Ideal S512x384 .f32) (r0_4.idx (ix2 r j)) = _
    have e : r0_4.idx (ix2 r j) = ix2 r ⟨128 + j.val, by omega⟩ := funext fun a => Fin.ext (by
      match a with
      | ⟨0, _⟩ => show 0 + 1 * r.val = r.val; omega
      | ⟨1, _⟩ => show 128 + 1 * j.val = 128 + j.val; omega)
    rw [e, iblk4_apply]
  · intro k j
    rw [View.ld_unit_zero (S := S96x128) hz]
    exact iblk3_apply m c t _
  · intro r j
    show (iblk m c 4 t : Vec Ideal S512x384 .f32) (r0_6.idx (ix2 r j)) = _
    have e : r0_6.idx (ix2 r j) = ix2 r ⟨256 + j.val, by omega⟩ := funext fun a => Fin.ext (by
      match a with
      | ⟨0, _⟩ => show 0 + 1 * r.val = r.val; omega
      | ⟨1, _⟩ => show 256 + 1 * j.val = 256 + j.val; omega)
    rw [e, iblk4_apply]

/-! ## The output window -/

/-- The packed result array as one function of the arguments. -/
def G5 (c : Dev nD) : S262144x128.Idx → EReal := fun i => net m c (i 0) (i 1)

/-- What point `t` writes back is block `t` of that function. -/
theorem flushed5_eq (c : Dev nD) (t : Fin cfg0.N) :
    (dats m 0 c).flushed 5 t = ((cfg0.win 5).blk t).view.read (Elt Ideal) (G5 m c) := by
  obtain ⟨-, -, -, -, -, -, -, -, -, -, e0, e1⟩ := idx_facts t
  show (cfg0.win 5).cut (grid0.coords t) ((dats m 0 c).after 5 t) = _
  rw [after0_5]
  unfold out0_5
  rw [View.canon_unit_zero hz]
  funext y
  obtain ⟨r, j, rfl⟩ : ∃ (r : Fin 512) (j : Fin 128), y = ix2 r j := ⟨y 0, y 1, eq_ix2 y⟩
  rw [View.read_apply]
  show k0_pay1 (View.ld (iblk m c 0 t) r0_0) (View.ld (iblk m c 1 t) r0_1) (View.ld (iblk m c 4 t) r0_2) (View.ld (iblk m c 2 t) r0_3)
        (View.ld (iblk m c 4 t) r0_4) (View.ld (iblk m c 3 t) r0_5) (View.ld (iblk m c 4 t) r0_6) (ix2 r j)
      = G5 m c (((cfg0.win 5).blk t).view.emb (ix2 r j))
  rw [pay_at m c t r j]
  unfold G5
  refine congrArg₂ (net m c) (Fin.ext ?_) (Fin.ext ?_)
  · show 512 * t.val + r.val = win0_5.index t (0 : Fin 2) * 512 + 1 * r.val; omega
  · show j.val = win0_5.index t (1 : Fin 2) * 128 + 1 * j.val; omega

/-- An index of the array is in point `t`'s block iff each coordinate is in the block's range on its axis. -/
theorem mem_blk5 (t : Fin cfg0.N) (i : S262144x128.Idx) :
    i ∈ ((cfg0.win 5).blk t).view.set ↔ ∀ a : Fin 2, win0_5.index t a * S512x128.size a ≤ (i a).val
      ∧ (i a).val < win0_5.index t a * S512x128.size a + S512x128.size a := by
  show i ∈ ((View.whole main_v2).slice (win0_5.rect t)).set ↔ _
  rw [View.set_slice_whole, Rect.mem_set_unit]
  exact Iff.rfl

/-- Every row lies in the block of the point `row / 512`. -/
theorem cover5 (i : S262144x128.Idx) :
    ∃ t : Fin cfg0.N, (cfg0.win 5).flush t = true ∧ i ∈ ((cfg0.win 5).blk t).view.set := by
  have h0 := idx2_lt0 i
  have h1 := idx2_lt1 i
  have hN : cfg0.N = 512 := N_0
  refine ⟨⟨(i 0).val / 512, by omega⟩, flush0_5 _, ?_⟩
  obtain ⟨-, -, -, -, -, -, -, -, -, -, e0, e1⟩ := idx_facts ⟨(i 0).val / 512, by omega⟩
  rw [mem_blk5]
  intro a
  match a with
  | ⟨0, _⟩ =>
    show win0_5.index _ (0 : Fin 2) * 512 ≤ (i 0).val ∧ (i 0).val < win0_5.index _ (0 : Fin 2) * 512 + 512
    rw [e0]; show (i 0).val / 512 * 512 ≤ (i 0).val ∧ (i 0).val < (i 0).val / 512 * 512 + 512; omega
  | ⟨1, _⟩ =>
    show win0_5.index _ (1 : Fin 2) * 128 ≤ (i 1).val ∧ (i 1).val < win0_5.index _ (1 : Fin 2) * 128 + 128
    rw [e1]; omega

/-- After the last point the packed result array is that function. -/
theorem final5 (c : Dev nD) : (dats m 0 c).arrAt 5 cfg0.N = G5 m c :=
  (dats m 0 c).arrAt_eq_of_cover 5 (G5 m c) (fun t _ => flushed5_eq m c t) cover5

end Cert.ReferenceIdeal.Hand

end
-- ==== Proof.RefRun.lean ====
/-
  The reference program's run, read: after the region the packed result array is cut into its columns 0–3, 4 and
  5–8, so the three result buffers hold the network's policy, critic and inverse-model columns of every batch row,
  and the six argument arrays are as they were.
-/
import proofs.«142301_g2000202583906136_pallasbulk_95_21_alg».proof.Proof.RefBlocks

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The policy columns of the argument arrays of core `c`. -/
abbrev policyOf (c : Dev nD) : S262144x4.Idx → EReal :=
  A2C.policy (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev criticOf (c : Dev nD) : S262144x1.Idx → EReal :=
  A2C.critic (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev inverseOf (c : Dev nD) : S262144x4.Idx → EReal :=
  A2C.inverse (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The first result: columns 0–3 of the packed array. -/
theorem tail_v3 (c : Dev nD) :
    Pipeline.afterTail₀ cfgs (dats m) 0 (V0 m) [hostOps1] c main_v3 = policyOf m c := by
  unfold Pipeline.afterTail₀
  show StableHlo.after hostOps1 _ (Proc.devRef .tc main_v3) = _
  after_results
  funext i
  obtain ⟨b, j, rfl⟩ : ∃ (b : Fin 262144) (j : Fin 4), i = ix2 b j := ⟨i 0, i 1, eq_ix2 i⟩
  refine (slice2_axis1_apply 0 _ _ b j ⟨j.val, by omega⟩ (by simp)).trans ?_
  exact (congrFun ((Pipeline.withArrays_arr spec0 launch0.win.arr_inj c _ _ 5).trans (final5 m c)) (ix2 b ⟨j.val, by omega⟩)).trans rfl

/-- The second result: column 4. -/
theorem tail_v4 (c : Dev nD) :
    Pipeline.afterTail₀ cfgs (dats m) 0 (V0 m) [hostOps1] c main_v4 = criticOf m c := by
  unfold Pipeline.afterTail₀
  show StableHlo.after hostOps1 _ (Proc.devRef .tc main_v4) = _
  after_results
  funext i
  obtain ⟨b, j, rfl⟩ : ∃ (b : Fin 262144) (j : Fin 1), i = ix2 b j := ⟨i 0, i 1, eq_ix2 i⟩
  refine (slice2_axis1_apply 4 _ _ b j ⟨4 + j.val, by omega⟩ rfl).trans ?_
  exact (congrFun ((Pipeline.withArrays_arr spec0 launch0.win.arr_inj c _ _ 5).trans (final5 m c)) (ix2 b ⟨4 + j.val, by omega⟩)).trans rfl

/-- The third result: columns 5–8. -/
theorem tail_v5 (c : Dev nD) :
    Pipeline.afterTail₀ cfgs (dats m) 0 (V0 m) [hostOps1] c main_v5 = inverseOf m c := by
  unfold Pipeline.afterTail₀
  show StableHlo.after hostOps1 _ (Proc.devRef .tc main_v5) = _
  after_results
  funext i
  obtain ⟨b, j, rfl⟩ : ∃ (b : Fin 262144) (j : Fin 4), i = ix2 b j := ⟨i 0, i 1, eq_ix2 i⟩
  refine (slice2_axis1_apply 5 _ _ b j ⟨5 + j.val, by omega⟩ rfl).trans ?_
  exact (congrFun ((Pipeline.withArrays_arr spec0 launch0.win.arr_inj c _ _ 5).trans (final5 m c)) (ix2 b ⟨5 + j.val, by omega⟩)).trans rfl

/-- THE RUN, READ: every weakly fair execution ends with the three results at the network's three heads of the
    argument arrays, and the arguments unchanged. -/
theorem run : θ_run defs (onTc (τ := τ) (main (F := Ideal))) ⟨m, fun _ => 0, ρ⟩ fun r => ∀ c : Dev nD,
      r.2.mem ((c : Thread nD τ).loc main_v3) = policyOf m c
      ∧ r.2.mem ((c : Thread nD τ).loc main_v4) = criticOf m c
      ∧ r.2.mem ((c : Thread nD τ).loc main_v5) = inverseOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v3 (Pipeline.mem_restRefs_of main_v3 (by decide) (by decide))).trans (tail_v3 m c),
     ((h c).2 main_v4 (Pipeline.mem_restRefs_of main_v4 (by decide) (by decide))).trans (tail_v4 m c),
     ((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 1).trans (((dats m 0 c).arrAt_in 1 rfl _).trans ((A_eq m c 1).trans (V_main_arg2 m c))),
     ((h c).1 2).trans (((dats m 0 c).arrAt_in 2 rfl _).trans ((A_eq m c 2).trans (V_main_arg3 m c))),
     ((h c).1 3).trans (((dats m 0 c).arrAt_in 3 rfl _).trans ((A_eq m c 3).trans (V_main_arg4 m c))),
     ((h c).2 main_arg5 (Pipeline.mem_restRefs_of main_arg5 (by decide) (by decide))).trans (W_main_arg5 m (dats m) c)⟩)
    (run_main m ρ)

end Cert.ReferenceIdeal.Hand

end
-- ==== Proof.lean ====
/-
  The certificate: a fused three-layer network over 262144 batch rows, computed by one kernel in transposed space
  (batch along the trailing axis, every bias fed through a product with a row of ones) against a reference kernel
  in row-major space (bias added after each product).

  Both programs are read at the extended reals. Each program's run is read back to one statement: the three
  result buffers hold the policy, critic and inverse-model columns of the SAME function `A2C.out` of the six argument
  arrays (Proof/KernelRun.lean, Proof/RefRun.lean, over Proof/Spec.lean). What joins the two arrangements is
  commutativity of the product, `x · 1 = x` and re-association of finite sums (Proof/Spec.lean); none of these needs
  the inputs to be finite, so the precondition is never opened. The three frames are the generated ones; no rewrite
  was applied when the kernel was idealized, so that conjunct is `True`.
-/
import proofs.«142301_g2000202583906136_pallasbulk_95_21_alg».proof.Defs
import proofs.«142301_g2000202583906136_pallasbulk_95_21_alg».proof.Proof.Gen.Kernel
import proofs.«142301_g2000202583906136_pallasbulk_95_21_alg».proof.Proof.Gen.Kernel.Frame
import proofs.«142301_g2000202583906136_pallasbulk_95_21_alg».proof.Proof.Gen.KernelIdeal
import proofs.«142301_g2000202583906136_pallasbulk_95_21_alg».proof.Proof.Gen.KernelIdeal.Frame
import proofs.«142301_g2000202583906136_pallasbulk_95_21_alg».proof.Proof.Gen.ReferenceIdeal
import proofs.«142301_g2000202583906136_pallasbulk_95_21_alg».proof.Proof.Gen.ReferenceIdeal.Frame
import proofs.«142301_g2000202583906136_pallasbulk_95_21_alg».proof.Proof.Gen.Pre_finite_inputs
import proofs.«142301_g2000202583906136_pallasbulk_95_21_alg».proof.Proof.KernelRun
import proofs.«142301_g2000202583906136_pallasbulk_95_21_alg».proof.Proof.RefRun
import Idealize.ShloMosaic.Adequacy
import Idealize.ShloMosaic.Init

noncomputable section

namespace Cert.Proof

open Idealize.ShloMosaic Idealize.SL.Sem

/-- From memories agreeing on the arguments both programs end with the same three results: each run ends at the
    network's three heads of its own argument arrays, and the argument arrays agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Hand.policyOf m c, fun c => Cert.KernelIdeal.Hand.criticOf m c,
    fun c => Cert.KernelIdeal.Hand.inverseOf m c, Cert.KernelIdeal.Hand.run m ρ, ?_⟩
  refine (θ_run Cert.ReferenceIdeal.defs _ _).mono (fun _ h c => ?_) (Cert.ReferenceIdeal.Hand.run m' ρ')
  obtain ⟨h3, h4, h5, hargs⟩ := h c
  obtain ⟨a0, a1, a2, a3, a4, a5⟩ := hagree c
  refine ⟨h3.trans ?_, h4.trans ?_, h5.trans ?_, hargs⟩
  · show A2C.policy _ _ _ _ _ _ = A2C.policy _ _ _ _ _ _
    rw [a0, a1, a2, a3, a4, a5]
  · show A2C.critic _ _ _ _ _ _ = A2C.critic _ _ _ _ _ _
    rw [a0, a1, a2, a3, a4, a5]
  · show A2C.inverse _ _ _ _ _ _ = A2C.inverse _ _ _ _ _ _
    rw [a0, a1, a2, a3, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
